-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S64x128 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S3x1x128 : Shape := ⟨3, ![3, 1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 77
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S3x128x128, .f32⟩
  | .hbm, ⟨12, _⟩ => ⟨S3x128x128, .f32⟩
  | .hbm, ⟨13, _⟩ => ⟨S3x1x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128x128, .f32⟩
  | .hbm, ⟨28, _⟩ => ⟨S128x128, .f32⟩
  | .hbm, ⟨29, _⟩ => ⟨S1x1x128, .f32⟩
  | .hbm, ⟨30, _⟩ => ⟨S1x128, .f32⟩
  | .hbm, ⟨31, _⟩ => ⟨S1x128x128, .f32⟩
  | .hbm, ⟨32, _⟩ => ⟨S128x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128x128, .f32⟩
  | .hbm, ⟨48, _⟩ => ⟨S128x128, .f32⟩
  | .hbm, ⟨49, _⟩ => ⟨S1x1x128, .f32⟩
  | .hbm, ⟨50, _⟩ => ⟨S1x128, .f32⟩
  | .hbm, ⟨51, _⟩ => ⟨S1x128x128, .f32⟩
  | .hbm, ⟨52, _⟩ => ⟨S128x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S1x1x128, .f32⟩
  | .hbm, ⟨70, _⟩ => ⟨S1x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S128x64, .f32⟩
  | .hbm, ⟨75, _⟩ => ⟨S1x64, .f32⟩
  | .hbm, ⟨76, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S3x128x128_S3x128x128_0_2_1 : S3x128x128.Transposes [0, 2, 1] S3x128x128
  shapeCasts_S3x128_S3x1x128 : S3x128.ShapeCasts S3x1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x1x128_S1x1x128_1_0_0 : S3x1x128.Slices ![1, 0, 0] S1x1x128
  slices_S3x128x128_S1x128x128_2_0_0 : S3x128x128.Slices ![2, 0, 0] S1x128x128
  slices_S3x1x128_S1x1x128_2_0_0 : S3x1x128.Slices ![2, 0, 0] S1x1x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128x128, .f32⟩
  | .hbm, ⟨25, _⟩ => ⟨S128x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S128x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128x128, .f32⟩
  | .hbm, ⟨52, _⟩ => ⟨S128x128, .f32⟩
  | .hbm, ⟨53, _⟩ => ⟨S128x128, .f32⟩
  | .hbm, ⟨54, _⟩ => ⟨S100000x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S1x128x128, .f32⟩
  | .hbm, ⟨61, _⟩ => ⟨S128x128, .f32⟩
  | .hbm, ⟨62, _⟩ => ⟨S128x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S1x128x128, .f32⟩
  | .hbm, ⟨79, _⟩ => ⟨S128x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S1x128x128, .f32⟩
  | .hbm, ⟨88, _⟩ => ⟨S128x128, .f32⟩
  | .hbm, ⟨89, _⟩ => ⟨S128x128, .f32⟩
  | .hbm, ⟨90, _⟩ => ⟨S100000x128, .f32⟩
  | .hbm, ⟨91, _⟩ => ⟨S100000x128, .f32⟩
  | .hbm, ⟨92, _⟩ => ⟨S128x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_4 : Ref sig .tc := ⟨.hbm, 65, rfl⟩
abbrev main_v52 : Ref sig .tc := ⟨.hbm, 66, rfl⟩
abbrev main_v53 : Ref sig .tc := ⟨.hbm, 67, rfl⟩
abbrev main_c_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with every buffer kept.

  The program is four kernel regions among stretches of host operations. Its run ends with every buffer that is not
  scoped to a region at the contents of the last boundary of the fold through the program: the launch memory, then each
  host stretch's operations applied, then each region's arrays at what its write-backs leave. Stated once here for
  all those buffers; the result buffer and the argument arrays are then read off that one statement.
-/
import proofs.«110138_j54056458388016_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- So the result buffer ends at the last boundary's contents, and the argument arrays end as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_boundary m ρ)

end Cert.KernelIdeal.Hand

end
-- ==== Proof.HostTerms.lean ====
/-
  The host operations of the idealized kernel program, as named functions of the arrays they read.

  Around its four kernel regions the program computes on the host: the two rows of the edge list as vectors of source
  and destination node ids; for each layer the aggregated neighbour features (gather the source rows — an id below zero
  first shifted up by the number of nodes —, then add each gathered row into its destination row of a zero array); the
  three weight stacks' 128×128 slices, taken after swapping each stack's last two axes; the bias stack's rows as 1×128
  arrays; and the final projection's transposed weights and its bias as a 1×64 array. Naming them keeps the
  aggregation — the same host operations in the reference — one opaque function wherever it occurs.
-/
import proofs.«110138_j54056458388016_1_alg».proof.Proof.Gen.KernelIdeal
import Idealize.ShloMosaic.PureOps.Ideal

noncomputable section

namespace Cert.KernelIdeal.Hand

open Cert.KernelIdeal Cert.KernelIdeal.Gen
open Idealize.ShloMosaic Idealize.ShloMosaic.TcCoe

abbrev Edges := (⟨S2x1600000, .i32⟩ : BufTy).Contents (Elt Ideal)
abbrev Ids := (⟨S1600000, .i32⟩ : BufTy).Contents (Elt Ideal)
abbrev Feat := (⟨S100000x128, .f32⟩ : BufTy).Contents (Elt Ideal)
abbrev Stack := (⟨S3x128x128, .f32⟩ : BufTy).Contents (Elt Ideal)
abbrev Mat := (⟨S128x128, .f32⟩ : BufTy).Contents (Elt Ideal)
abbrev BiasStack := (⟨S3x128, .f32⟩ : BufTy).Contents (Elt Ideal)
abbrev BiasCube := (⟨S3x1x128, .f32⟩ : BufTy).Contents (Elt Ideal)
abbrev BiasRow := (⟨S1x128, .f32⟩ : BufTy).Contents (Elt Ideal)

/-- Row 0 of the edge list: the source node of each edge. -/
def srcIds (E : Edges) : Ids :=
  shapeCast _ (extractStridedSlice S1x1600000 ![0, 0] E slices_S2x1600000_S1x1600000_0_0) shapeCasts_S1x1600000_S1600000

/-- Row 1 of the edge list: the destination node of each edge. -/
def dstIds (E : Edges) : Ids :=
  shapeCast _ (extractStridedSlice S1x1600000 ![1, 0] E slices_S2x1600000_S1x1600000_1_0) shapeCasts_S1x1600000_S1600000

/-- The aggregated neighbour features: the source rows gathered, added at the destination rows of a zero array. -/
def aggregate (X : Feat) (src dst : Ids) : Feat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A weight stack with the last two axes of every slice swapped. -/
def swapLast (W : Stack) : Stack := transpose S3x128x128 [0, 2, 1] W transposes_S3x128x128_S3x128x128_0_2_1

/-- Slices 0, 1, 2 of a stack, as 128×128 matrices. -/
def mat0 (T : Stack) : Mat :=
  shapeCast _ (extractStridedSlice S1x128x128 ![0, 0, 0] T slices_S3x128x128_S1x128x128_0_0_0) shapeCasts_S1x128x128_S128x128
def mat1 (T : Stack) : Mat :=
  shapeCast _ (extractStridedSlice S1x128x128 ![1, 0, 0] T slices_S3x128x128_S1x128x128_1_0_0) shapeCasts_S1x128x128_S128x128
def mat2 (T : Stack) : Mat :=
  shapeCast _ (extractStridedSlice S1x128x128 ![2, 0, 0] T slices_S3x128x128_S1x128x128_2_0_0) shapeCasts_S1x128x128_S128x128

/-- The bias stack with a unit middle axis. -/
def biasCube (b : BiasStack) : BiasCube := shapeCast _ b shapeCasts_S3x128_S3x1x128

/-- Rows 0, 1, 2 of the bias stack, as 1×128 arrays. -/
def row0 (B : BiasCube) : BiasRow :=
  shapeCast _ (extractStridedSlice S1x1x128 ![0, 0, 0] B slices_S3x1x128_S1x1x128_0_0_0) shapeCasts_S1x1x128_S1x128
def row1 (B : BiasCube) : BiasRow :=
  shapeCast _ (extractStridedSlice S1x1x128 ![1, 0, 0] B slices_S3x1x128_S1x1x128_1_0_0) shapeCasts_S1x1x128_S1x128
def row2 (B : BiasCube) : BiasRow :=
  shapeCast _ (extractStridedSlice S1x1x128 ![2, 0, 0] B slices_S3x1x128_S1x1x128_2_0_0) shapeCasts_S1x1x128_S1x128

/-- The final projection's weights, transposed to 128×64. -/
def fcT (w : (⟨S64x128, .f32⟩ : BufTy).Contents (Elt Ideal)) : (⟨S128x64, .f32⟩ : BufTy).Contents (Elt Ideal) :=
  transpose S128x64 [1, 0] w transposes_S64x128_S128x64_1_0

/-- The final projection's bias as a 1×64 array. -/
def fcRow (b : (⟨S64, .f32⟩ : BufTy).Contents (Elt Ideal)) : (⟨S1x64, .f32⟩ : BufTy).Contents (Elt Ideal) :=
  shapeCast _ b shapeCasts_S64_S1x64

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«110138_j54056458388016_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«110138_j54056458388016_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.GraphLayers.lean ====
/-
  Graph-convolution layers on the extended reals, as functions of whole arrays.

  One layer takes the aggregated neighbour features A and the node features X (both r×k), two k×n weight matrices
  Wr and Wo and a 1×n bias row b, and returns the r×n array whose entry (p, q) is

      (Σ_c A(p, c) · Wr(c, q)  +  Σ_c X(p, c) · Wo(c, q))  +  b(0, q).

  The final projection is X · W plus a bias row. An entry of either depends on one row of A and X, so a block of
  consecutive rows of the inputs gives the same rows of the result. The same layer grouped as
  (A·Wr + bias) + X·Wo is the same extended real: addition there is commutative and associative, infinities
  included, so no finiteness is asked.
-/
import Idealize.ShloMosaic.PureOps.Ideal.Laws
import Idealize.ShloMosaic.Lib.ValueIdx
import proofs.«110138_j54056458388016_1_alg».proof.Proof.LibBlockReads
import proofs.«110138_j54056458388016_1_alg».proof.Proof.LibMatProd
import proofs.«110138_j54056458388016_1_alg».proof.Proof.LibRowBlocks

open scoped BigOperators

noncomputable section

namespace Cert.Hand.Layers

open Idealize.ShloMosaic Idealize.ShloMosaic.ValueIdx Cert.Lib.MatProd Cert.Lib.RowBlocks

variable {r r' k n : Nat}

/-- The bias row's entry in the column of an index of an r×n array. -/
def biasAt (b : (⟨2, ![1, n]⟩ : Shape).Idx → EReal) (i : (⟨2, ![r, n]⟩ : Shape).Idx) : EReal :=
  b (ix2 (0 : Fin 1) (⟨(i 1).val, idx2_lt1 i⟩ : Fin n))

/-- One layer: the neighbour term plus the root term, then the bias. -/
def combine (A X : (⟨2, ![r, k]⟩ : Shape).Idx → EReal) (Wr Wo : (⟨2, ![k, n]⟩ : Shape).Idx → EReal)
    (b : (⟨2, ![1, n]⟩ : Shape).Idx → EReal) : (⟨2, ![r, n]⟩ : Shape).Idx → EReal :=
  fun i => (matProd A Wr i + matProd X Wo i) + biasAt b i

/-- The final projection: a product plus a bias row. -/
def project (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => matProd X W i + biasAt b i

theorem biasAt_col (b : (⟨2, ![1, n]⟩ : Shape).Idx → EReal) (y : (⟨2, ![r', n]⟩ : Shape).Idx)
    (i : (⟨2, ![r, n]⟩ : Shape).Idx) (hcol : (y 1).val = (i 1).val) : biasAt b y = biasAt b i := by
  unfold biasAt
  exact congrArg b (congrArg (ix2 (0 : Fin 1)) (Fin.ext hcol))

/-- An entry of a layer depends on one row of A and of X: rows of the inputs give the same rows of the layer. -/
theorem combine_rows (A X : (⟨2, ![r, k]⟩ : Shape).Idx → EReal) (A' X' : (⟨2, ![r', k]⟩ : Shape).Idx → EReal)
    (Wr Wo : (⟨2, ![k, n]⟩ : Shape).Idx → EReal) (b : (⟨2, ![1, n]⟩ : Shape).Idx → EReal)
    (y : (⟨2, ![r', n]⟩ : Shape).Idx) (i : (⟨2, ![r, n]⟩ : Shape).Idx)
    (hA : ∀ c : Fin k, A' (ix2 (⟨(y 0).val, idx2_lt0 y⟩ : Fin r') c) = A (ix2 (⟨(i 0).val, idx2_lt0 i⟩ : Fin r) c))
    (hX : ∀ c : Fin k, X' (ix2 (⟨(y 0).val, idx2_lt0 y⟩ : Fin r') c) = X (ix2 (⟨(i 0).val, idx2_lt0 i⟩ : Fin r) c))
    (hcol : (y 1).val = (i 1).val) :
    combine A' X' Wr Wo b y = combine A X Wr Wo b i := by
  unfold combine
  rw [matProd_rows A A' Wr y i hA hcol, matProd_rows X X' Wo y i hX hcol, biasAt_col b y i hcol]

/-- The same for the projection. -/
theorem project_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    project X' W b y = project X W b i := by
  unfold project
  rw [matProd_rows X X' W y i hX hcol, biasAt_col b y i hcol]

/-- The layer with the bias added before the root term is the same extended real. -/
theorem combine_regroup (A X : (⟨2, ![r, k]⟩ : Shape).Idx → EReal) (Wr Wo : (⟨2, ![k, n]⟩ : Shape).Idx → EReal)
    (b : (⟨2, ![1, n]⟩ : Shape).Idx → EReal) (i : (⟨2, ![r, n]⟩ : Shape).Idx) :
    (matProd A Wr i + biasAt b i) + matProd X Wo i = combine A X Wr Wo b i :=
  add_right_comm _ _ _

end Cert.Hand.Layers

end
-- ==== Proof.Network.lean ====
/-
  The network the idealized kernel program computes, as one function of its seven argument arrays.

  Layer l of features y: the aggregated neighbour features of y along the edge list times the l-th neighbour weight
  matrix, plus y times the l-th root weight matrix, plus the l-th bias row; the weight matrices are slices of the
  stacks with their last two axes swapped. The network is layer 2 of layer 1 of layer 0 of the input features,
  projected by the transposed final weights with the final bias as a row.
-/
import proofs.«110138_j54056458388016_1_alg».proof.Proof.HostTerms
import proofs.«110138_j54056458388016_1_alg».proof.Proof.GraphLayers

noncomputable section

namespace Cert.KernelIdeal.Hand

open Cert.KernelIdeal
open Idealize.ShloMosaic Idealize.ShloMosaic.TcCoe
open Cert.Hand.Layers

/-- Layers 0, 1, 2 of features y along the edge list e, with the stacked weights and biases. -/
def layerOut0 (y : Feat) (e : Edges) (wr : Stack) (b : BiasStack) (wo : Stack) : Feat :=
  combine (r := 100000) (k := 128) (n := 128) (aggregate y (srcIds e) (dstIds e)) y (mat0 (swapLast wr)) (mat0 (swapLast wo)) (row0 (biasCube b))
def layerOut1 (y : Feat) (e : Edges) (wr : Stack) (b : BiasStack) (wo : Stack) : Feat :=
  combine (r := 100000) (k := 128) (n := 128) (aggregate y (srcIds e) (dstIds e)) y (mat1 (swapLast wr)) (mat1 (swapLast wo)) (row1 (biasCube b))
def layerOut2 (y : Feat) (e : Edges) (wr : Stack) (b : BiasStack) (wo : Stack) : Feat :=
  combine (r := 100000) (k := 128) (n := 128) (aggregate y (srcIds e) (dstIds e)) y (mat2 (swapLast wr)) (mat2 (swapLast wo)) (row2 (biasCube b))

/-- The whole network: three layers, then the projection. -/
def network (x : Feat) (e : Edges) (wr : Stack) (b : BiasStack) (wo : Stack)
    (fw : (⟨S64x128, .f32⟩ : BufTy).Contents (Elt Ideal)) (fb : (⟨S64, .f32⟩ : BufTy).Contents (Elt Ideal)) :
    (⟨S100000x64, .f32⟩ : BufTy).Contents (Elt Ideal) :=
  project (r := 100000) (k := 128) (n := 64) (layerOut2 (layerOut1 (layerOut0 x e wr b wo) e wr b wo) e wr b wo) (fcT fw) (fcRow fb)

end Cert.KernelIdeal.Hand

end
-- ==== Proof.Region0.lean ====
/-
  Layer 0 of the graph convolution, as region 0 of the idealized kernel program leaves it.

  The region walks twenty blocks of 5000 rows. At a point t its body loads rows 5000·t … 5000·t + 4999 of the
  aggregated neighbour features and of the node features, both weight matrices whole and the bias row whole, and stores

      (agg · Wr  +  x · Wo)  +  bias row            (changes of float format are the identity on the extended reals)

  into rows 5000·t … 5000·t + 4999 of the result. An entry of that layer depends on one row of its two inputs, so
  the block a point writes back is the same rows of the layer applied to the WHOLE arrays; the twenty blocks tile the
  100000 rows; hence after the region the result array is the layer of the whole arrays. All of it is stated at a
  parameter V, the buffers' contents when the region is entered.
-/
import proofs.«110138_j54056458388016_1_alg».proof.Proof.Gen.KernelIdeal.Frame
import Idealize.ShloMosaic.Lib.Pipeline.Value
import Idealize.ShloMosaic.Lib.ValueIdx
import proofs.«110138_j54056458388016_1_alg».proof.Proof.GraphLayers

set_option maxRecDepth 16384

noncomputable section

namespace Cert.KernelIdeal.Hand.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.MatProd Cert.Lib.BlockReads Cert.Hand.Layers

variable (V : (c : Dev nD) → (b : Ref sig .tc) → Buf (Elt Ideal) ((c : Thread nD τ).loc b))

theorem zero_off : (![0, 0] : Fin 2 → Nat) = fun _ => 0 := funext fun a => by fin_cases a <;> rfl

/-- The body's stored value is the layer of its five loaded blocks. -/
theorem body_eq (a x : Vec Ideal S5000x128 .f32) (wr wo : Vec Ideal S128x128 .f32) (b : Vec Ideal S1x128 .f32) :
    (k0_pay1 a x wr wo b : S5000x128.Idx → EReal) = combine (r := 5000) (k := 128) (n := 128) a x wr wo b := by
  funext j
  obtain ⟨p, q, rfl⟩ : ∃ (p : Fin 5000) (q : Fin 128), j = ix2 p q := ⟨j 0, j 1, eq_ix2 j⟩
  unfold k0_pay1 combine biasAt
  simp only [shapeCast_self]
  show (matmul _ none _ _ _ (ix2 p q) + matmul _ none _ _ _ (ix2 p q)) + broadcastTo _ _ _ (ix2 p q) = _
  rw [matmul_zero_eq_matProd _ rfl rfl rfl rfl rfl rfl, matmul_zero_eq_matProd _ rfl rfl rfl rfl rfl rfl,
    broadcast_row_apply]
  rfl

/-- The printed index maps over the grid: the two row-blocked inputs and the output sit at block (t, 0), the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 5000·t … of the aggregated features. -/
theorem agg_block (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_v16 : S100000x128.Idx → EReal) i := by
  obtain ⟨e0, e1, -⟩ := idx_facts t
  unfold iblk0
  rw [View.read_apply]
  show V c main_v16 _ = V c main_v16 _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- Window 1's block at point t is rows 5000·t … of the node features. -/
theorem feat_block (c : Dev nD) (t : Fin cfg0.N) (x : S5000x128.Idx) (i : S100000x128.Idx)
    (h0 : (i 0).val = 5000 * t.val + (x 0).val) (h1 : (i 1).val = (x 1).val) :
    (iblk0 V c 1 t : Vec Ideal S5000x128 .f32) x = (V c main_arg0 : S100000x128.Idx → EReal) i := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (i 0).val; rw [e0, h0]; omega
  | ⟨1, _⟩ => show win0_1.index t 1 * 128 + 1 * (x 1).val = (i 1).val; rw [e1, h1]; omega

/-- Window 2's block is the whole neighbour weight matrix at every point. -/
theorem wr_block (c : Dev nD) (t : Fin cfg0.N) :
    (iblk0 V c 2 t : Vec Ideal S128x128 .f32) = (V c main_v18 : S128x128.Idx → EReal) := by
  obtain ⟨-, -, -, -, e0, e1, -⟩ := idx_facts t
  funext x
  unfold iblk0
  rw [View.read_apply]
  show V c main_v18 _ = V c main_v18 x
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- Window 3's block is the whole bias row at every point. -/
theorem bias_block (c : Dev nD) (t : Fin cfg0.N) :
    (iblk0 V c 3 t : Vec Ideal S1x128 .f32) = (V c main_v20 : S1x128.Idx → EReal) := by
  obtain ⟨-, -, -, -, -, -, e0, e1, -⟩ := idx_facts t
  funext x
  unfold iblk0
  rw [View.read_apply]
  show V c main_v20 _ = V c main_v20 x
  congr 1
  funext a
  apply Fin.ext
  match a with
  | ⟨0, _⟩ => show win0_3.index t 0 * 1 + 1 * (x 0).val = (x 0).val; rw [e0]; omega
  | ⟨1, _⟩ => show win0_3.index t 1 * 128 + 1 * (x 1).val = (x 1).val; rw [e1]; omega

/-- Window 4's block is the whole root weight matrix at every point. -/
theorem wo_block (c : Dev nD) (t : Fin cfg0.N) :
    (iblk0 V c 4 t : Vec Ideal S128x128 .f32) = (V c main_v22 : S128x128.Idx → EReal) := by
  obtain ⟨-, -, -, -, -, -, -, -, e0, e1, -⟩ := idx_facts t
  funext x
  unfold iblk0
  rw [View.read_apply]
  show V c main_v22 _ = V c main_v22 x
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- The layer of the whole arrays as the region finds them. -/
def layer (c : Dev nD) : S100000x128.Idx → EReal :=
  combine (r := 100000) (k := 128) (n := 128) (V c main_v16) (V c main_arg0) (V c main_v18) (V c main_v22) (V c main_v20)

/-- What point t writes back is block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S128x128) zero_off,
    View.ld_unit_zero (S := S1x128) zero_off]
  rw [body_eq, wr_block, wo_block, bias_block]
  obtain ⟨-, -, -, -, -, -, -, -, -, -, e0, e1⟩ := idx_facts t
  funext y
  show combine (r := 5000) (k := 128) (n := 128) (iblk0 V c 0 t) (iblk0 V c 1 t) (V c main_v18) (V c main_v22) (V c main_v20) y
    = layer V c (((cfg0.win 5).blk t).view.emb y)
  have hrow : ((((cfg0.win 5).blk t).view.emb y : S100000x128.Idx) 0).val = 5000 * t.val + (y 0).val := by
    show win0_5.index t 0 * 5000 + 1 * (y 0).val = _; rw [e0]; omega
  have hcol : ((((cfg0.win 5).blk t).view.emb y : S100000x128.Idx) 1).val = (y 1).val := by
    show win0_5.index t 1 * 128 + 1 * (y 1).val = _; rw [e1]; omega
  unfold layer
  exact combine_rows _ _ _ _ _ _ _ y _
    (fun k => agg_block V c t _ _ hrow rfl) (fun k => feat_block V c t _ _ hrow rfl) hcol.symm

/-- An index of the result array is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The twenty blocks tile the 100000 rows: row r is in block r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  let t : Fin cfg0.N := ⟨(i 0).val / 5000, by show _ < grid0.N; omega⟩
  obtain ⟨-, -, -, -, -, -, -, -, -, -, e0, e1⟩ := idx_facts t
  refine ⟨t, flush0_5 t, ?_⟩
  rw [mem_blk]
  intro a
  have ht : t.val = (i 0).val / 5000 := rfl
  match a with
  | ⟨0, _⟩ => show win0_5.index t 0 * 5000 ≤ (i 0).val ∧ (i 0).val < win0_5.index t 0 * 5000 + 5000; rw [e0, ht]; omega
  | ⟨1, _⟩ => show win0_5.index t 1 * 128 ≤ (i 1).val ∧ (i 1).val < win0_5.index t 1 * 128 + 128; rw [e1]; omega

/-- After the region the result array is the layer of the whole arrays as the region found them. -/
theorem result (c : Dev nD) : (dat0 V c).arrAt 5 cfg0.N = layer V c :=
  (dat0 V c).arrAt_eq_of_cover 5 (layer V c) (fun t _ => flushed_eq V c t) (cover)

end Cert.KernelIdeal.Hand.Region0

end
-- ==== Proof.Region1.lean ====
/-
  Layer 1 of the graph convolution, as region 1 of the idealized kernel program leaves it.

  The region walks twenty blocks of 5000 rows. At a point t its body loads rows 5000·t … 5000·t + 4999 of the
  aggregated neighbour features and of the node features, both weight matrices whole and the bias row whole, and stores

      (agg · Wr  +  x · Wo)  +  bias row            (changes of float format are the identity on the extended reals)

  into rows 5000·t … 5000·t + 4999 of the result. An entry of that layer depends on one row of its two inputs, so
  the block a point writes back is the same rows of the layer applied to the WHOLE arrays; the twenty blocks tile the
  100000 rows; hence after the region the result array is the layer of the whole arrays. All of it is stated at a
  parameter V, the buffers' contents when the region is entered.
-/
import proofs.«110138_j54056458388016_1_alg».proof.Proof.Gen.KernelIdeal.Frame
import Idealize.ShloMosaic.Lib.Pipeline.Value
import Idealize.ShloMosaic.Lib.ValueIdx
import proofs.«110138_j54056458388016_1_alg».proof.Proof.GraphLayers

set_option maxRecDepth 16384

noncomputable section

namespace Cert.KernelIdeal.Hand.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.MatProd Cert.Lib.BlockReads Cert.Hand.Layers

variable (V : (c : Dev nD) → (b : Ref sig .tc) → Buf (Elt Ideal) ((c : Thread nD τ).loc b))

theorem zero_off : (![0, 0] : Fin 2 → Nat) = fun _ => 0 := funext fun a => by fin_cases a <;> rfl

/-- The body's stored value is the layer of its five loaded blocks. -/
theorem body_eq (a x : Vec Ideal S5000x128 .f32) (wr wo : Vec Ideal S128x128 .f32) (b : Vec Ideal S1x128 .f32) :
    (k1_pay1 a x wr wo b : S5000x128.Idx → EReal) = combine (r := 5000) (k := 128) (n := 128) a x wr wo b := by
  funext j
  obtain ⟨p, q, rfl⟩ : ∃ (p : Fin 5000) (q : Fin 128), j = ix2 p q := ⟨j 0, j 1, eq_ix2 j⟩
  unfold k1_pay1 combine biasAt
  simp only [shapeCast_self]
  show (matmul _ none _ _ _ (ix2 p q) + matmul _ none _ _ _ (ix2 p q)) + broadcastTo _ _ _ (ix2 p q) = _
  rw [matmul_zero_eq_matProd _ rfl rfl rfl rfl rfl rfl, matmul_zero_eq_matProd _ rfl rfl rfl rfl rfl rfl,
    broadcast_row_apply]
  rfl

/-- The printed index maps over the grid: the two row-blocked inputs and the output sit at block (t, 0), the weights
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … of the aggregated features. -/
theorem agg_block (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v33 : S100000x128.Idx → EReal) i := by
  obtain ⟨e0, e1, -⟩ := idx_facts t
  unfold iblk1
  rw [View.read_apply]
  show V c main_v33 _ = V c main_v33 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- Window 1's block at point t is rows 5000·t … of the node features. -/
theorem feat_block (c : Dev nD) (t : Fin cfg1.N) (x : S5000x128.Idx) (i : S100000x128.Idx)
    (h0 : (i 0).val = 5000 * t.val + (x 0).val) (h1 : (i 1).val = (x 1).val) :
    (iblk1 V c 1 t : Vec Ideal S5000x128 .f32) x = (V c main_v23 : S100000x128.Idx → EReal) i := by
  obtain ⟨-, -, e0, e1, -⟩ := idx_facts t
  unfold iblk1
  rw [View.read_apply]
  show V c main_v23 _ = V c main_v23 _
  congr 1
  funext a
  apply Fin.ext
  match a with
  | ⟨0, _⟩ => show win1_1.index t 0 * 5000 + 1 * (x 0).val = (i 0).val; rw [e0, h0]; omega
  | ⟨1, _⟩ => show win1_1.index t 1 * 128 + 1 * (x 1).val = (i 1).val; rw [e1, h1]; omega

/-- Window 2's block is the whole neighbour weight matrix at every point. -/
theorem wr_block (c : Dev nD) (t : Fin cfg1.N) :
    (iblk1 V c 2 t : Vec Ideal S128x128 .f32) = (V c main_v35 : S128x128.Idx → EReal) := by
  obtain ⟨-, -, -, -, e0, e1, -⟩ := idx_facts t
  funext x
  unfold iblk1
  rw [View.read_apply]
  show V c main_v35 _ = V c main_v35 x
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- Window 3's block is the whole bias row at every point. -/
theorem bias_block (c : Dev nD) (t : Fin cfg1.N) :
    (iblk1 V c 3 t : Vec Ideal S1x128 .f32) = (V c main_v37 : S1x128.Idx → EReal) := by
  obtain ⟨-, -, -, -, -, -, e0, e1, -⟩ := idx_facts t
  funext x
  unfold iblk1
  rw [View.read_apply]
  show V c main_v37 _ = V c main_v37 x
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- Window 4's block is the whole root weight matrix at every point. -/
theorem wo_block (c : Dev nD) (t : Fin cfg1.N) :
    (iblk1 V c 4 t : Vec Ideal S128x128 .f32) = (V c main_v39 : S128x128.Idx → EReal) := by
  obtain ⟨-, -, -, -, -, -, -, -, e0, e1, -⟩ := idx_facts t
  funext x
  unfold iblk1
  rw [View.read_apply]
  show V c main_v39 _ = V c main_v39 x
  congr 1
  funext a
  apply Fin.ext
  match a with
  | ⟨0, _⟩ => show win1_4.index t 0 * 128 + 1 * (x 0).val = (x 0).val; rw [e0]; omega
  | ⟨1, _⟩ => show win1_4.index t 1 * 128 + 1 * (x 1).val = (x 1).val; rw [e1]; omega

/-- The layer of the whole arrays as the region finds them. -/
def layer (c : Dev nD) : S100000x128.Idx → EReal :=
  combine (r := 100000) (k := 128) (n := 128) (V c main_v33) (V c main_v23) (V c main_v35) (V c main_v39) (V c main_v37)

/-- What point t writes back is block t of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S128x128) zero_off,
    View.ld_unit_zero (S := S1x128) zero_off]
  rw [body_eq, wr_block, wo_block, bias_block]
  obtain ⟨-, -, -, -, -, -, -, -, -, -, e0, e1⟩ := idx_facts t
  funext y
  show combine (r := 5000) (k := 128) (n := 128) (iblk1 V c 0 t) (iblk1 V c 1 t) (V c main_v35) (V c main_v39) (V c main_v37) y
    = layer V c (((cfg1.win 5).blk t).view.emb y)
  have hrow : ((((cfg1.win 5).blk t).view.emb y : S100000x128.Idx) 0).val = 5000 * t.val + (y 0).val := by
    show win1_5.index t 0 * 5000 + 1 * (y 0).val = _; rw [e0]; omega
  have hcol : ((((cfg1.win 5).blk t).view.emb y : S100000x128.Idx) 1).val = (y 1).val := by
    show win1_5.index t 1 * 128 + 1 * (y 1).val = _; rw [e1]; omega
  unfold layer
  exact combine_rows _ _ _ _ _ _ _ y _
    (fun k => agg_block V c t _ _ hrow rfl) (fun k => feat_block V c t _ _ hrow rfl) hcol.symm

/-- An index of the result array is in point t's block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The twenty blocks tile the 100000 rows: row r is in block r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  let t : Fin cfg1.N := ⟨(i 0).val / 5000, by show _ < grid1.N; omega⟩
  obtain ⟨-, -, -, -, -, -, -, -, -, -, e0, e1⟩ := idx_facts t
  refine ⟨t, flush1_5 t, ?_⟩
  rw [mem_blk]
  intro a
  have ht : t.val = (i 0).val / 5000 := rfl
  match a with
  | ⟨0, _⟩ => show win1_5.index t 0 * 5000 ≤ (i 0).val ∧ (i 0).val < win1_5.index t 0 * 5000 + 5000; rw [e0, ht]; omega
  | ⟨1, _⟩ => show win1_5.index t 1 * 128 ≤ (i 1).val ∧ (i 1).val < win1_5.index t 1 * 128 + 128; rw [e1]; omega

/-- After the region the result array is the layer of the whole arrays as the region found them. -/
theorem result (c : Dev nD) : (dat1 V c).arrAt 5 cfg1.N = layer V c :=
  (dat1 V c).arrAt_eq_of_cover 5 (layer V c) (fun t _ => flushed_eq V c t) (cover)

end Cert.KernelIdeal.Hand.Region1

end
-- ==== Proof.Region2.lean ====
/-
  Layer 2 of the graph convolution, as region 2 of the idealized kernel program leaves it.

  The region walks twenty blocks of 5000 rows. At a point t its body loads rows 5000·t … 5000·t + 4999 of the
  aggregated neighbour features and of the node features, both weight matrices whole and the bias row whole, and stores

      (agg · Wr  +  x · Wo)  +  bias row            (changes of float format are the identity on the extended reals)

  into rows 5000·t … 5000·t + 4999 of the result. An entry of that layer depends on one row of its two inputs, so
  the block a point writes back is the same rows of the layer applied to the WHOLE arrays; the twenty blocks tile the
  100000 rows; hence after the region the result array is the layer of the whole arrays. All of it is stated at a
  parameter V, the buffers' contents when the region is entered.
-/
import proofs.«110138_j54056458388016_1_alg».proof.Proof.Gen.KernelIdeal.Frame
import Idealize.ShloMosaic.Lib.Pipeline.Value
import Idealize.ShloMosaic.Lib.ValueIdx
import proofs.«110138_j54056458388016_1_alg».proof.Proof.GraphLayers

set_option maxRecDepth 16384

noncomputable section

namespace Cert.KernelIdeal.Hand.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.MatProd Cert.Lib.BlockReads Cert.Hand.Layers

variable (V : (c : Dev nD) → (b : Ref sig .tc) → Buf (Elt Ideal) ((c : Thread nD τ).loc b))

theorem zero_off : (![0, 0] : Fin 2 → Nat) = fun _ => 0 := funext fun a => by fin_cases a <;> rfl

/-- The body's stored value is the layer of its five loaded blocks. -/
theorem body_eq (a x : Vec Ideal S5000x128 .f32) (wr wo : Vec Ideal S128x128 .f32) (b : Vec Ideal S1x128 .f32) :
    (k2_pay1 a x wr wo b : S5000x128.Idx → EReal) = combine (r := 5000) (k := 128) (n := 128) a x wr wo b := by
  funext j
  obtain ⟨p, q, rfl⟩ : ∃ (p : Fin 5000) (q : Fin 128), j = ix2 p q := ⟨j 0, j 1, eq_ix2 j⟩
  unfold k2_pay1 combine biasAt
  simp only [shapeCast_self]
  show (matmul _ none _ _ _ (ix2 p q) + matmul _ none _ _ _ (ix2 p q)) + broadcastTo _ _ _ (ix2 p q) = _
  rw [matmul_zero_eq_matProd _ rfl rfl rfl rfl rfl rfl, matmul_zero_eq_matProd _ rfl rfl rfl rfl rfl rfl,
    broadcast_row_apply]
  rfl

/-- The printed index maps over the grid: the two row-blocked inputs and the output sit at block (t, 0), the weights
    and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 5000·t … of the aggregated features. -/
theorem agg_block (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v50 : S100000x128.Idx → EReal) i := by
  obtain ⟨e0, e1, -⟩ := idx_facts t
  unfold iblk2
  rw [View.read_apply]
  show V c main_v50 _ = V c main_v50 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- Window 1's block at point t is rows 5000·t … of the node features. -/
theorem feat_block (c : Dev nD) (t : Fin cfg2.N) (x : S5000x128.Idx) (i : S100000x128.Idx)
    (h0 : (i 0).val = 5000 * t.val + (x 0).val) (h1 : (i 1).val = (x 1).val) :
    (iblk2 V c 1 t : Vec Ideal S5000x128 .f32) x = (V c main_v40 : S100000x128.Idx → EReal) i := by
  obtain ⟨-, -, e0, e1, -⟩ := idx_facts t
  unfold iblk2
  rw [View.read_apply]
  show V c main_v40 _ = V c main_v40 _
  congr 1
  funext a
  apply Fin.ext
  match a with
  | ⟨0, _⟩ => show win2_1.index t 0 * 5000 + 1 * (x 0).val = (i 0).val; rw [e0, h0]; omega
  | ⟨1, _⟩ => show win2_1.index t 1 * 128 + 1 * (x 1).val = (i 1).val; rw [e1, h1]; omega

/-- Window 2's block is the whole neighbour weight matrix at every point. -/
theorem wr_block (c : Dev nD) (t : Fin cfg2.N) :
    (iblk2 V c 2 t : Vec Ideal S128x128 .f32) = (V c main_v52 : S128x128.Idx → EReal) := by
  obtain ⟨-, -, -, -, e0, e1, -⟩ := idx_facts t
  funext x
  unfold iblk2
  rw [View.read_apply]
  show V c main_v52 _ = V c main_v52 x
  congr 1
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- Window 3's block is the whole bias row at every point. -/
theorem bias_block (c : Dev nD) (t : Fin cfg2.N) :
    (iblk2 V c 3 t : Vec Ideal S1x128 .f32) = (V c main_v54 : S1x128.Idx → EReal) := by
  obtain ⟨-, -, -, -, -, -, e0, e1, -⟩ := idx_facts t
  funext x
  unfold iblk2
  rw [View.read_apply]
  show V c main_v54 _ = V c main_v54 x
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- Window 4's block is the whole root weight matrix at every point. -/
theorem wo_block (c : Dev nD) (t : Fin cfg2.N) :
    (iblk2 V c 4 t : Vec Ideal S128x128 .f32) = (V c main_v56 : S128x128.Idx → EReal) := by
  obtain ⟨-, -, -, -, -, -, -, -, e0, e1, -⟩ := idx_facts t
  funext x
  unfold iblk2
  rw [View.read_apply]
  show V c main_v56 _ = V c main_v56 x
  congr 1
  funext a
  apply Fin.ext
  match a with
  | ⟨0, _⟩ => show win2_4.index t 0 * 128 + 1 * (x 0).val = (x 0).val; rw [e0]; omega
  | ⟨1, _⟩ => show win2_4.index t 1 * 128 + 1 * (x 1).val = (x 1).val; rw [e1]; omega

/-- The layer of the whole arrays as the region finds them. -/
def layer (c : Dev nD) : S100000x128.Idx → EReal :=
  combine (r := 100000) (k := 128) (n := 128) (V c main_v50) (V c main_v40) (V c main_v52) (V c main_v56) (V c main_v54)

/-- What point t writes back is block t of the layer of the whole arrays. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero zero_off]
  simp only [View.ld_unit_zero (S := S5000x128) zero_off, View.ld_unit_zero (S := S128x128) zero_off,
    View.ld_unit_zero (S := S1x128) zero_off]
  rw [body_eq, wr_block, wo_block, bias_block]
  obtain ⟨-, -, -, -, -, -, -, -, -, -, e0, e1⟩ := idx_facts t
  funext y
  show combine (r := 5000) (k := 128) (n := 128) (iblk2 V c 0 t) (iblk2 V c 1 t) (V c main_v52) (V c main_v56) (V c main_v54) y
    = layer V c (((cfg2.win 5).blk t).view.emb y)
  have hrow : ((((cfg2.win 5).blk t).view.emb y : S100000x128.Idx) 0).val = 5000 * t.val + (y 0).val := by
    show win2_5.index t 0 * 5000 + 1 * (y 0).val = _; rw [e0]; omega
  have hcol : ((((cfg2.win 5).blk t).view.emb y : S100000x128.Idx) 1).val = (y 1).val := by
    show win2_5.index t 1 * 128 + 1 * (y 1).val = _; rw [e1]; omega
  unfold layer
  exact combine_rows _ _ _ _ _ _ _ y _
    (fun k => agg_block V c t _ _ hrow rfl) (fun k => feat_block V c t _ _ hrow rfl) hcol.symm

/-- An index of the result array is in point t's block iff each coordinate is in the block's range. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v57).slice (win2_5.rect t)).set ↔ _
  rw [View.set_slice_whole, Rect.mem_set_unit]
  exact Iff.rfl

/-- The twenty blocks tile the 100000 rows: row r is in block r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  let t : Fin cfg2.N := ⟨(i 0).val / 5000, by show _ < grid2.N; omega⟩
  obtain ⟨-, -, -, -, -, -, -, -, -, -, e0, e1⟩ := idx_facts t
  refine ⟨t, flush2_5 t, ?_⟩
  rw [mem_blk]
  intro a
  have ht : t.val = (i 0).val / 5000 := rfl
  match a with
  | ⟨0, _⟩ => show win2_5.index t 0 * 5000 ≤ (i 0).val ∧ (i 0).val < win2_5.index t 0 * 5000 + 5000; rw [e0, ht]; omega
  | ⟨1, _⟩ => show win2_5.index t 1 * 128 ≤ (i 1).val ∧ (i 1).val < win2_5.index t 1 * 128 + 128; rw [e1]; omega

/-- After the region the result array is the layer of the whole arrays as the region found them. -/
theorem result (c : Dev nD) : (dat2 V c).arrAt 5 cfg2.N = layer V c :=
  (dat2 V c).arrAt_eq_of_cover 5 (layer V c) (fun t _ => flushed_eq V c t) (cover)

end Cert.KernelIdeal.Hand.Region2

end
-- ==== Proof.Region3.lean ====
/-
  The final projection, as region 3 of the idealized kernel program leaves it.

  The region walks twenty blocks of 5000 rows. At a point t its body loads rows 5000·t … 5000·t + 4999 of the last
  layer's features, the 128×64 weight matrix whole and the 1×64 bias row whole, and stores

      x · W  +  bias row                             (changes of float format are the identity on the extended reals)

  into rows 5000·t … 5000·t + 4999 of the result. An entry of that projection depends on one row of the features, so
  the block a point writes back is the same rows of the projection of the WHOLE array; the twenty blocks tile the
  100000 rows; hence after the region the result array is the projection of the whole array. All of it is stated at a
  parameter V, the buffers' contents when the region is entered.
-/
import proofs.«110138_j54056458388016_1_alg».proof.Proof.Gen.KernelIdeal.Frame
import Idealize.ShloMosaic.Lib.Pipeline.Value
import Idealize.ShloMosaic.Lib.ValueIdx
import proofs.«110138_j54056458388016_1_alg».proof.Proof.GraphLayers

set_option maxRecDepth 16384

noncomputable section

namespace Cert.KernelIdeal.Hand.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.MatProd Cert.Lib.BlockReads Cert.Hand.Layers

variable (V : (c : Dev nD) → (b : Ref sig .tc) → Buf (Elt Ideal) ((c : Thread nD τ).loc b))

theorem zero_off : (![0, 0] : Fin 2 → Nat) = fun _ => 0 := funext fun a => by fin_cases a <;> rfl

/-- The body's stored value is the projection of its three loaded blocks. -/
theorem body_eq (x : Vec Ideal S5000x128 .f32) (w : Vec Ideal S128x64 .f32) (b : Vec Ideal S1x64 .f32) :
    (k3_pay1 x w b : S5000x64.Idx → EReal) = project (r := 5000) (k := 128) (n := 64) x w b := by
  funext j
  obtain ⟨p, q, rfl⟩ : ∃ (p : Fin 5000) (q : Fin 64), j = ix2 p q := ⟨j 0, j 1, eq_ix2 j⟩
  unfold k3_pay1 project biasAt
  simp only [shapeCast_self]
  show matmul _ none _ _ _ (ix2 p q) + broadcastTo _ _ _ (ix2 p q) = _
  rw [matmul_zero_eq_matProd _ rfl rfl rfl rfl rfl rfl, broadcast_row_apply]
  rfl

/-- The printed index maps over the grid: the features and the output sit at block (t, 0), the weights and the bias at
    block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point t is rows 5000·t … of the features. -/
theorem feat_block (c : Dev nD) (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c main_v57 : S100000x128.Idx → EReal) i := by
  obtain ⟨e0, e1, -⟩ := idx_facts t
  unfold iblk3
  rw [View.read_apply]
  show V c main_v57 _ = V c main_v57 _
  congr 1
  funext a
  apply Fin.ext
  match a with
  | ⟨0, _⟩ => show win3_0.index t 0 * 5000 + 1 * (x 0).val = (i 0).val; rw [e0, h0]; omega
  | ⟨1, _⟩ => show win3_0.index t 1 * 128 + 1 * (x 1).val = (i 1).val; rw [e1, h1]; omega

/-- Window 1's block is the whole weight matrix at every point. -/
theorem w_block (c : Dev nD) (t : Fin cfg3.N) :
    (iblk3 V c 1 t : Vec Ideal S128x64 .f32) = (V c main_v58 : S128x64.Idx → EReal) := by
  obtain ⟨-, -, e0, e1, -⟩ := idx_facts t
  funext x
  unfold iblk3
  rw [View.read_apply]
  show V c main_v58 _ = V c main_v58 x
  congr 1
  funext a
  apply Fin.ext
  match a with
  | ⟨0, _⟩ => show win3_1.index t 0 * 128 + 1 * (x 0).val = (x 0).val; rw [e0]; omega
  | ⟨1, _⟩ => show win3_1.index t 1 * 64 + 1 * (x 1).val = (x 1).val; rw [e1]; omega

/-- Window 2's block is the whole bias row at every point. -/
theorem bias_block (c : Dev nD) (t : Fin cfg3.N) :
    (iblk3 V c 2 t : Vec Ideal S1x64 .f32) = (V c main_v59 : S1x64.Idx → EReal) := by
  obtain ⟨-, -, -, -, e0, e1, -⟩ := idx_facts t
  funext x
  unfold iblk3
  rw [View.read_apply]
  show V c main_v59 _ = V c main_v59 x
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The projection of the whole arrays as the region finds them. -/
def layer (c : Dev nD) : S100000x64.Idx → EReal :=
  project (r := 100000) (k := 128) (n := 64) (V c main_v57) (V c main_v58) (V c main_v59)

/-- What point t writes back is block t of the projection of the whole arrays. -/
theorem flushed_eq (c : Dev nD) (t : Fin cfg3.N) :
    (dat3 V c).flushed 3 t = ((cfg3.win 3).blk t).view.read (Elt Ideal) (layer V c) := by
  show (cfg3.win 3).cut (grid3.coords t) ((dat3 V c).after 3 t) = _
  rw [after3_3]
  unfold out3_3
  rw [View.canon_unit_zero zero_off]
  simp only [View.ld_unit_zero (S := S5000x128) zero_off, View.ld_unit_zero (S := S128x64) zero_off,
    View.ld_unit_zero (S := S1x64) zero_off]
  rw [body_eq, w_block, bias_block]
  obtain ⟨-, -, -, -, -, -, e0, e1⟩ := idx_facts t
  funext y
  show project (r := 5000) (k := 128) (n := 64) (iblk3 V c 0 t) (V c main_v58) (V c main_v59) y
    = layer V c (((cfg3.win 3).blk t).view.emb y)
  have hrow : ((((cfg3.win 3).blk t).view.emb y : S100000x64.Idx) 0).val = 5000 * t.val + (y 0).val := by
    show win3_3.index t 0 * 5000 + 1 * (y 0).val = _; rw [e0]; omega
  have hcol : ((((cfg3.win 3).blk t).view.emb y : S100000x64.Idx) 1).val = (y 1).val := by
    show win3_3.index t 1 * 64 + 1 * (y 1).val = _; rw [e1]; omega
  unfold layer
  exact project_rows _ _ _ _ y _ (fun k => feat_block V c t _ _ hrow rfl) hcol.symm

/-- An index of the result array is in point t's block iff each coordinate is in the block's range. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v60).slice (win3_3.rect t)).set ↔ _
  rw [View.set_slice_whole, Rect.mem_set_unit]
  exact Iff.rfl

/-- The twenty blocks tile the 100000 rows: row r is in block r / 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  let t : Fin cfg3.N := ⟨(i 0).val / 5000, by show _ < grid3.N; omega⟩
  obtain ⟨-, -, -, -, -, -, e0, e1⟩ := idx_facts t
  refine ⟨t, flush3_3 t, ?_⟩
  rw [mem_blk]
  intro a
  have ht : t.val = (i 0).val / 5000 := rfl
  match a with
  | ⟨0, _⟩ => show win3_3.index t 0 * 5000 ≤ (i 0).val ∧ (i 0).val < win3_3.index t 0 * 5000 + 5000; rw [e0, ht]; omega
  | ⟨1, _⟩ => show win3_3.index t 1 * 64 ≤ (i 1).val ∧ (i 1).val < win3_3.index t 1 * 64 + 64; rw [e1]; omega

/-- After the region the result array is the projection of the whole arrays as the region found them. -/
theorem result (c : Dev nD) : (dat3 V c).arrAt 3 cfg3.N = layer V c :=
  (dat3 V c).arrAt_eq_of_cover 3 (layer V c) (fun t _ => flushed_eq V c t) (cover)

end Cert.KernelIdeal.Hand.Region3

end
-- ==== Proof.Stretch0.lean ====
/-
  The host operations before the first region, read off the program's fold.

  From the launch contents the first stretch computes the source and destination ids, both weight stacks with their
  last two axes swapped, the bias stack with a unit middle axis, the aggregated features of the input features, and
  layer 0's slices of the weights and of the bias. Each buffer after the stretch is the named host function of the
  buffers before it; a buffer the stretch does not write holds what it held.
-/
import proofs.«110138_j54056458388016_1_alg».proof.Proof.Gen.KernelIdeal.Frame
import proofs.«110138_j54056458388016_1_alg».proof.Proof.HostTerms

set_option maxRecDepth 16384

noncomputable section

namespace Cert.KernelIdeal.Hand.Stretch0

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- The aggregated features of the input features. -/
theorem agg : W1 m ρ c (Proc.devRef .tc main_v16)
    = aggregate (W0 m ρ c (Proc.devRef .tc main_arg0)) (srcIds (W0 m ρ c (Proc.devRef .tc main_arg1))) (dstIds (W0 m ρ c (Proc.devRef .tc main_arg1))) := by
  show StableHlo.after hostOps0 (W0 m ρ c) (Proc.devRef .tc main_v16) = _
  after_results_simp
  unfold aggregate srcIds dstIds
  rfl

set_option maxHeartbeats 4000000 in
/-- The input features are not written. -/
theorem feat : W1 m ρ c (Proc.devRef .tc main_arg0)
    = W0 m ρ c (Proc.devRef .tc main_arg0) := by
  show StableHlo.after hostOps0 (W0 m ρ c) (Proc.devRef .tc main_arg0) = _
  after_results_simp

set_option maxHeartbeats 4000000 in
/-- Layer 0's neighbour weights. -/
theorem wr : W1 m ρ c (Proc.devRef .tc main_v18)
    = mat0 (swapLast (W0 m ρ c (Proc.devRef .tc main_arg2))) := by
  show StableHlo.after hostOps0 (W0 m ρ c) (Proc.devRef .tc main_v18) = _
  after_results_simp
  unfold mat0 swapLast
  rfl

set_option maxHeartbeats 4000000 in
/-- Layer 0's bias row. -/
theorem bias : W1 m ρ c (Proc.devRef .tc main_v20)
    = row0 (biasCube (W0 m ρ c (Proc.devRef .tc main_arg3))) := by
  show StableHlo.after hostOps0 (W0 m ρ c) (Proc.devRef .tc main_v20) = _
  after_results_simp
  unfold row0 biasCube
  rfl

set_option maxHeartbeats 4000000 in
/-- Layer 0's root weights. -/
theorem wo : W1 m ρ c (Proc.devRef .tc main_v22)
    = mat0 (swapLast (W0 m ρ c (Proc.devRef .tc main_arg4))) := by
  show StableHlo.after hostOps0 (W0 m ρ c) (Proc.devRef .tc main_v22) = _
  after_results_simp
  unfold mat0 swapLast
  rfl

set_option maxHeartbeats 4000000 in
/-- The source ids, kept for the later layers. -/
theorem src : W1 m ρ c (Proc.devRef .tc main_v1)
    = srcIds (W0 m ρ c (Proc.devRef .tc main_arg1)) := by
  show StableHlo.after hostOps0 (W0 m ρ c) (Proc.devRef .tc main_v1) = _
  after_results_simp
  unfold srcIds
  rfl

set_option maxHeartbeats 4000000 in
/-- The destination ids, kept for the later layers. -/
theorem dst : W1 m ρ c (Proc.devRef .tc main_v3)
    = dstIds (W0 m ρ c (Proc.devRef .tc main_arg1)) := by
  show StableHlo.after hostOps0 (W0 m ρ c) (Proc.devRef .tc main_v3) = _
  after_results_simp
  unfold dstIds
  rfl

set_option maxHeartbeats 4000000 in
/-- The neighbour weight stack, axes swapped, kept for the later layers. -/
theorem relStack : W1 m ρ c (Proc.devRef .tc main_v4)
    = swapLast (W0 m ρ c (Proc.devRef .tc main_arg2)) := by
  show StableHlo.after hostOps0 (W0 m ρ c) (Proc.devRef .tc main_v4) = _
  after_results_simp
  unfold swapLast
  rfl

set_option maxHeartbeats 4000000 in
/-- The root weight stack, axes swapped, kept for the later layers. -/
theorem rootStack : W1 m ρ c (Proc.devRef .tc main_v5)
    = swapLast (W0 m ρ c (Proc.devRef .tc main_arg4)) := by
  show StableHlo.after hostOps0 (W0 m ρ c) (Proc.devRef .tc main_v5) = _
  after_results_simp
  unfold swapLast
  rfl

set_option maxHeartbeats 4000000 in
/-- The bias stack with a unit middle axis, kept for the later layers. -/
theorem cube : W1 m ρ c (Proc.devRef .tc main_v6)
    = biasCube (W0 m ρ c (Proc.devRef .tc main_arg3)) := by
  show StableHlo.after hostOps0 (W0 m ρ c) (Proc.devRef .tc main_v6) = _
  after_results_simp
  unfold biasCube
  rfl

set_option maxHeartbeats 4000000 in
/-- The projection's weights are not written. -/
theorem fcw : W1 m ρ c (Proc.devRef .tc main_arg5)
    = W0 m ρ c (Proc.devRef .tc main_arg5) := by
  show StableHlo.after hostOps0 (W0 m ρ c) (Proc.devRef .tc main_arg5) = _
  after_results_simp

set_option maxHeartbeats 4000000 in
/-- The projection's bias is not written. -/
theorem fcb : W1 m ρ c (Proc.devRef .tc main_arg6)
    = W0 m ρ c (Proc.devRef .tc main_arg6) := by
  show StableHlo.after hostOps0 (W0 m ρ c) (Proc.devRef .tc main_arg6) = _
  after_results_simp

end Cert.KernelIdeal.Hand.Stretch0

end
-- ==== Proof.Stretch1.lean ====
/-
  The host operations between region 0 and region 1, read off the program's fold.

  From the contents region 0 leaves, this stretch computes the aggregated features of layer 0's result and layer 1's
  slices of the weights and of the bias. Each buffer after the stretch is the named host function of the buffers before
  it; a buffer the stretch does not write holds what it held.
-/
import proofs.«110138_j54056458388016_1_alg».proof.Proof.Gen.KernelIdeal.Frame
import proofs.«110138_j54056458388016_1_alg».proof.Proof.HostTerms

set_option maxRecDepth 16384

noncomputable section

namespace Cert.KernelIdeal.Hand.Stretch1

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- The aggregated features of layer 0's result. -/
theorem agg : W3 m ρ c (Proc.devRef .tc main_v33)
    = aggregate (W2 m ρ c (Proc.devRef .tc main_v23)) (W2 m ρ c (Proc.devRef .tc main_v1)) (W2 m ρ c (Proc.devRef .tc main_v3)) := by
  show StableHlo.after hostOps1 (W2 m ρ c) (Proc.devRef .tc main_v33) = _
  after_results_simp
  unfold aggregate
  rfl

set_option maxHeartbeats 4000000 in
/-- Layer 0's result is not written. -/
theorem feat : W3 m ρ c (Proc.devRef .tc main_v23)
    = W2 m ρ c (Proc.devRef .tc main_v23) := by
  show StableHlo.after hostOps1 (W2 m ρ c) (Proc.devRef .tc main_v23) = _
  after_results_simp

set_option maxHeartbeats 4000000 in
/-- Layer 1's neighbour weights. -/
theorem wr : W3 m ρ c (Proc.devRef .tc main_v35)
    = mat1 (W2 m ρ c (Proc.devRef .tc main_v4)) := by
  show StableHlo.after hostOps1 (W2 m ρ c) (Proc.devRef .tc main_v35) = _
  after_results_simp
  unfold mat1
  rfl

set_option maxHeartbeats 4000000 in
/-- Layer 1's bias row. -/
theorem bias : W3 m ρ c (Proc.devRef .tc main_v37)
    = row1 (W2 m ρ c (Proc.devRef .tc main_v6)) := by
  show StableHlo.after hostOps1 (W2 m ρ c) (Proc.devRef .tc main_v37) = _
  after_results_simp
  unfold row1
  rfl

set_option maxHeartbeats 4000000 in
/-- Layer 1's root weights. -/
theorem wo : W3 m ρ c (Proc.devRef .tc main_v39)
    = mat1 (W2 m ρ c (Proc.devRef .tc main_v5)) := by
  show StableHlo.after hostOps1 (W2 m ρ c) (Proc.devRef .tc main_v39) = _
  after_results_simp
  unfold mat1
  rfl

set_option maxHeartbeats 4000000 in
/-- Kept: the stretch does not write it. -/
theorem src : W3 m ρ c (Proc.devRef .tc main_v1)
    = W2 m ρ c (Proc.devRef .tc main_v1) := by
  show StableHlo.after hostOps1 (W2 m ρ c) (Proc.devRef .tc main_v1) = _
  after_results_simp

set_option maxHeartbeats 4000000 in
/-- Kept: the stretch does not write it. -/
theorem dst : W3 m ρ c (Proc.devRef .tc main_v3)
    = W2 m ρ c (Proc.devRef .tc main_v3) := by
  show StableHlo.after hostOps1 (W2 m ρ c) (Proc.devRef .tc main_v3) = _
  after_results_simp

set_option maxHeartbeats 4000000 in
/-- Kept: the stretch does not write it. -/
theorem relStack : W3 m ρ c (Proc.devRef .tc main_v4)
    = W2 m ρ c (Proc.devRef .tc main_v4) := by
  show StableHlo.after hostOps1 (W2 m ρ c) (Proc.devRef .tc main_v4) = _
  after_results_simp

set_option maxHeartbeats 4000000 in
/-- Kept: the stretch does not write it. -/
theorem rootStack : W3 m ρ c (Proc.devRef .tc main_v5)
    = W2 m ρ c (Proc.devRef .tc main_v5) := by
  show StableHlo.after hostOps1 (W2 m ρ c) (Proc.devRef .tc main_v5) = _
  after_results_simp

set_option maxHeartbeats 4000000 in
/-- Kept: the stretch does not write it. -/
theorem cube : W3 m ρ c (Proc.devRef .tc main_v6)
    = W2 m ρ c (Proc.devRef .tc main_v6) := by
  show StableHlo.after hostOps1 (W2 m ρ c) (Proc.devRef .tc main_v6) = _
  after_results_simp

set_option maxHeartbeats 4000000 in
/-- Kept: the stretch does not write it. -/
theorem fcw : W3 m ρ c (Proc.devRef .tc main_arg5)
    = W2 m ρ c (Proc.devRef .tc main_arg5) := by
  show StableHlo.after hostOps1 (W2 m ρ c) (Proc.devRef .tc main_arg5) = _
  after_results_simp

set_option maxHeartbeats 4000000 in
/-- Kept: the stretch does not write it. -/
theorem fcb : W3 m ρ c (Proc.devRef .tc main_arg6)
    = W2 m ρ c (Proc.devRef .tc main_arg6) := by
  show StableHlo.after hostOps1 (W2 m ρ c) (Proc.devRef .tc main_arg6) = _
  after_results_simp

end Cert.KernelIdeal.Hand.Stretch1

end
-- ==== Proof.Stretch2.lean ====
/-
  The host operations between region 1 and region 2, read off the program's fold.

  From the contents region 1 leaves, this stretch computes the aggregated features of layer 1's result and layer 2's
  slices of the weights and of the bias. Each buffer after the stretch is the named host function of the buffers before
  it; a buffer the stretch does not write holds what it held.
-/
import proofs.«110138_j54056458388016_1_alg».proof.Proof.Gen.KernelIdeal.Frame
import proofs.«110138_j54056458388016_1_alg».proof.Proof.HostTerms

set_option maxRecDepth 16384

noncomputable section

namespace Cert.KernelIdeal.Hand.Stretch2

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- The aggregated features of layer 1's result. -/
theorem agg : W5 m ρ c (Proc.devRef .tc main_v50)
    = aggregate (W4 m ρ c (Proc.devRef .tc main_v40)) (W4 m ρ c (Proc.devRef .tc main_v1)) (W4 m ρ c (Proc.devRef .tc main_v3)) := by
  show StableHlo.after hostOps2 (W4 m ρ c) (Proc.devRef .tc main_v50) = _
  after_results_simp
  unfold aggregate
  rfl

set_option maxHeartbeats 4000000 in
/-- Layer 1's result is not written. -/
theorem feat : W5 m ρ c (Proc.devRef .tc main_v40)
    = W4 m ρ c (Proc.devRef .tc main_v40) := by
  show StableHlo.after hostOps2 (W4 m ρ c) (Proc.devRef .tc main_v40) = _
  after_results_simp

set_option maxHeartbeats 4000000 in
/-- Layer 2's neighbour weights. -/
theorem wr : W5 m ρ c (Proc.devRef .tc main_v52)
    = mat2 (W4 m ρ c (Proc.devRef .tc main_v4)) := by
  show StableHlo.after hostOps2 (W4 m ρ c) (Proc.devRef .tc main_v52) = _
  after_results_simp
  unfold mat2
  rfl

set_option maxHeartbeats 4000000 in
/-- Layer 2's bias row. -/
theorem bias : W5 m ρ c (Proc.devRef .tc main_v54)
    = row2 (W4 m ρ c (Proc.devRef .tc main_v6)) := by
  show StableHlo.after hostOps2 (W4 m ρ c) (Proc.devRef .tc main_v54) = _
  after_results_simp
  unfold row2
  rfl

set_option maxHeartbeats 4000000 in
/-- Layer 2's root weights. -/
theorem wo : W5 m ρ c (Proc.devRef .tc main_v56)
    = mat2 (W4 m ρ c (Proc.devRef .tc main_v5)) := by
  show StableHlo.after hostOps2 (W4 m ρ c) (Proc.devRef .tc main_v56) = _
  after_results_simp
  unfold mat2
  rfl

set_option maxHeartbeats 4000000 in
/-- Kept: the stretch does not write it. -/
theorem src : W5 m ρ c (Proc.devRef .tc main_v1)
    = W4 m ρ c (Proc.devRef .tc main_v1) := by
  show StableHlo.after hostOps2 (W4 m ρ c) (Proc.devRef .tc main_v1) = _
  after_results_simp

set_option maxHeartbeats 4000000 in
/-- Kept: the stretch does not write it. -/
theorem dst : W5 m ρ c (Proc.devRef .tc main_v3)
    = W4 m ρ c (Proc.devRef .tc main_v3) := by
  show StableHlo.after hostOps2 (W4 m ρ c) (Proc.devRef .tc main_v3) = _
  after_results_simp

set_option maxHeartbeats 4000000 in
/-- Kept: the stretch does not write it. -/
theorem relStack : W5 m ρ c (Proc.devRef .tc main_v4)
    = W4 m ρ c (Proc.devRef .tc main_v4) := by
  show StableHlo.after hostOps2 (W4 m ρ c) (Proc.devRef .tc main_v4) = _
  after_results_simp

set_option maxHeartbeats 4000000 in
/-- Kept: the stretch does not write it. -/
theorem rootStack : W5 m ρ c (Proc.devRef .tc main_v5)
    = W4 m ρ c (Proc.devRef .tc main_v5) := by
  show StableHlo.after hostOps2 (W4 m ρ c) (Proc.devRef .tc main_v5) = _
  after_results_simp

set_option maxHeartbeats 4000000 in
/-- Kept: the stretch does not write it. -/
theorem cube : W5 m ρ c (Proc.devRef .tc main_v6)
    = W4 m ρ c (Proc.devRef .tc main_v6) := by
  show StableHlo.after hostOps2 (W4 m ρ c) (Proc.devRef .tc main_v6) = _
  after_results_simp

set_option maxHeartbeats 4000000 in
/-- Kept: the stretch does not write it. -/
theorem fcw : W5 m ρ c (Proc.devRef .tc main_arg5)
    = W4 m ρ c (Proc.devRef .tc main_arg5) := by
  show StableHlo.after hostOps2 (W4 m ρ c) (Proc.devRef .tc main_arg5) = _
  after_results_simp

set_option maxHeartbeats 4000000 in
/-- Kept: the stretch does not write it. -/
theorem fcb : W5 m ρ c (Proc.devRef .tc main_arg6)
    = W4 m ρ c (Proc.devRef .tc main_arg6) := by
  show StableHlo.after hostOps2 (W4 m ρ c) (Proc.devRef .tc main_arg6) = _
  after_results_simp

end Cert.KernelIdeal.Hand.Stretch2

end
-- ==== Proof.Stretch3.lean ====
/-
  The host operations before the last region, read off the program's fold.

  From the contents region 2 leaves, this stretch transposes the projection's weights and gives its bias a unit leading
  axis; layer 2's result is not written.
-/
import proofs.«110138_j54056458388016_1_alg».proof.Proof.Gen.KernelIdeal.Frame
import proofs.«110138_j54056458388016_1_alg».proof.Proof.HostTerms

set_option maxRecDepth 16384

noncomputable section

namespace Cert.KernelIdeal.Hand.Stretch3

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- Layer 2's result is not written. -/
theorem feat : W7 m ρ c (Proc.devRef .tc main_v57)
    = W6 m ρ c (Proc.devRef .tc main_v57) := by
  show StableHlo.after hostOps3 (W6 m ρ c) (Proc.devRef .tc main_v57) = _
  after_results_simp

set_option maxHeartbeats 4000000 in
/-- The projection's weights, transposed. -/
theorem w : W7 m ρ c (Proc.devRef .tc main_v58)
    = fcT (W6 m ρ c (Proc.devRef .tc main_arg5)) := by
  show StableHlo.after hostOps3 (W6 m ρ c) (Proc.devRef .tc main_v58) = _
  after_results_simp
  unfold fcT
  rfl

set_option maxHeartbeats 4000000 in
/-- The projection's bias as a row. -/
theorem bias : W7 m ρ c (Proc.devRef .tc main_v59)
    = fcRow (W6 m ρ c (Proc.devRef .tc main_arg6)) := by
  show StableHlo.after hostOps3 (W6 m ρ c) (Proc.devRef .tc main_v59) = _
  after_results_simp
  unfold fcRow
  rfl

end Cert.KernelIdeal.Hand.Stretch3

end
-- ==== Proof.KernelValue.lean ====
/-
  The idealized kernel program's result as a function of its argument arrays.

  The program's fold alternates host stretches and kernel regions. Walking it from the launch memory: the first stretch
  prepares layer 0's operands, region 0 leaves layer 0's result; the second stretch aggregates that result and cuts layer
  1's weights, region 1 leaves layer 1's result; likewise layer 2; the last stretch prepares the projection's operands
  and region 3 leaves the projection of layer 2's result in the result buffer. Each region's array is the layer function
  of the arrays it found on entry; a region leaves every buffer other than its own arrays untouched, and a host stretch
  leaves every buffer it does not write untouched. So the result buffer holds

      project (layer₂ (layer₁ (layer₀ x))) ,   layerₗ y = (aggregate y · Wrₗ + y · Woₗ) + biasₗ ,

  with the aggregation and the weight and bias slices the host functions of the argument arrays.
-/
import proofs.«110138_j54056458388016_1_alg».proof.Proof.Gen.KernelIdeal.Frame
import proofs.«110138_j54056458388016_1_alg».proof.Proof.HostTerms
import proofs.«110138_j54056458388016_1_alg».proof.Proof.GraphLayers
import proofs.«110138_j54056458388016_1_alg».proof.Proof.Network
import proofs.«110138_j54056458388016_1_alg».proof.Proof.Region0
import proofs.«110138_j54056458388016_1_alg».proof.Proof.Region1
import proofs.«110138_j54056458388016_1_alg».proof.Proof.Region2
import proofs.«110138_j54056458388016_1_alg».proof.Proof.Region3
import proofs.«110138_j54056458388016_1_alg».proof.Proof.Stretch0
import proofs.«110138_j54056458388016_1_alg».proof.Proof.Stretch1
import proofs.«110138_j54056458388016_1_alg».proof.Proof.Stretch2
import proofs.«110138_j54056458388016_1_alg».proof.Proof.Stretch3

set_option maxRecDepth 16384

noncomputable section

namespace Cert.KernelIdeal.Hand

open Cert.KernelIdeal Cert.KernelIdeal.Gen
open Idealize.ShloMosaic Idealize.ShloMosaic.TcCoe Idealize.SL.Sem
open Cert.Hand.Layers

variable (m : (ℓ : Loc nD τ sig) → Buf (Elt Ideal) ℓ) (ρ : Dev nD → PrngReg) (c : Dev nD)

/-! ## The launch memory at the arguments -/

theorem launch (r : Ref sig .tc) : W0 m ρ c (Proc.devRef .tc r) = m ((c : Thread nD τ).loc r) := rfl

/-! ## Layer 0 -/

/-- Region 0 leaves layer 0's result. -/
theorem after0 : W2 m ρ c (Proc.devRef .tc main_v23)
    = layerOut0 (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ?_
  rw [Region0.result]
  unfold Region0.layer layerOut0
  show combine (W1 m ρ c (Proc.devRef .tc main_v16)) (W1 m ρ c (Proc.devRef .tc main_arg0)) (W1 m ρ c (Proc.devRef .tc main_v18))
    (W1 m ρ c (Proc.devRef .tc main_v22)) (W1 m ρ c (Proc.devRef .tc main_v20)) = _
  rw [Stretch0.agg, Stretch0.feat, Stretch0.wr, Stretch0.wo, Stretch0.bias]

/-- Region 0 touches only its own arrays: what the first stretch prepared for the later layers is kept. -/
theorem kept0_src : W2 m ρ c (Proc.devRef .tc main_v1) = srcIds (m ((c : Thread nD τ).loc main_arg1)) :=
  (W2_of_ne m ρ c main_v1 (by decide)).trans (Stretch0.src m ρ c)
theorem kept0_dst : W2 m ρ c (Proc.devRef .tc main_v3) = dstIds (m ((c : Thread nD τ).loc main_arg1)) :=
  (W2_of_ne m ρ c main_v3 (by decide)).trans (Stretch0.dst m ρ c)
theorem kept0_rel : W2 m ρ c (Proc.devRef .tc main_v4) = swapLast (m ((c : Thread nD τ).loc main_arg2)) :=
  (W2_of_ne m ρ c main_v4 (by decide)).trans (Stretch0.relStack m ρ c)
theorem kept0_root : W2 m ρ c (Proc.devRef .tc main_v5) = swapLast (m ((c : Thread nD τ).loc main_arg4)) :=
  (W2_of_ne m ρ c main_v5 (by decide)).trans (Stretch0.rootStack m ρ c)
theorem kept0_cube : W2 m ρ c (Proc.devRef .tc main_v6) = biasCube (m ((c : Thread nD τ).loc main_arg3)) :=
  (W2_of_ne m ρ c main_v6 (by decide)).trans (Stretch0.cube m ρ c)
theorem kept0_fcw : W2 m ρ c (Proc.devRef .tc main_arg5) = m ((c : Thread nD τ).loc main_arg5) :=
  (W2_of_ne m ρ c main_arg5 (by decide)).trans (Stretch0.fcw m ρ c)
theorem kept0_fcb : W2 m ρ c (Proc.devRef .tc main_arg6) = m ((c : Thread nD τ).loc main_arg6) :=
  (W2_of_ne m ρ c main_arg6 (by decide)).trans (Stretch0.fcb m ρ c)

/-! ## Layer 1 -/

/-- Region 1 leaves layer 1's result, of layer 0's. -/
theorem after1 : W4 m ρ c (Proc.devRef .tc main_v40)
    = layerOut1 (W2 m ρ c (Proc.devRef .tc main_v23)) (m ((c : Thread nD τ).loc main_arg1)) (m ((c : Thread nD τ).loc main_arg2))
        (m ((c : Thread nD τ).loc main_arg3)) (m ((c : Thread nD τ).loc main_arg4)) := by
  refine (W4_arr m ρ c 5).trans ?_
  rw [Region1.result]
  unfold Region1.layer layerOut1
  show combine (W3 m ρ c (Proc.devRef .tc main_v33)) (W3 m ρ c (Proc.devRef .tc main_v23)) (W3 m ρ c (Proc.devRef .tc main_v35))
    (W3 m ρ c (Proc.devRef .tc main_v39)) (W3 m ρ c (Proc.devRef .tc main_v37)) = _
  rw [Stretch1.agg, Stretch1.feat, Stretch1.wr, Stretch1.wo, Stretch1.bias,
    kept0_src, kept0_dst, kept0_rel, kept0_root, kept0_cube]

theorem kept1_src : W4 m ρ c (Proc.devRef .tc main_v1) = srcIds (m ((c : Thread nD τ).loc main_arg1)) :=
  (W4_of_ne m ρ c main_v1 (by decide)).trans ((Stretch1.src m ρ c).trans (kept0_src m ρ c))
theorem kept1_dst : W4 m ρ c (Proc.devRef .tc main_v3) = dstIds (m ((c : Thread nD τ).loc main_arg1)) :=
  (W4_of_ne m ρ c main_v3 (by decide)).trans ((Stretch1.dst m ρ c).trans (kept0_dst m ρ c))
theorem kept1_rel : W4 m ρ c (Proc.devRef .tc main_v4) = swapLast (m ((c : Thread nD τ).loc main_arg2)) :=
  (W4_of_ne m ρ c main_v4 (by decide)).trans ((Stretch1.relStack m ρ c).trans (kept0_rel m ρ c))
theorem kept1_root : W4 m ρ c (Proc.devRef .tc main_v5) = swapLast (m ((c : Thread nD τ).loc main_arg4)) :=
  (W4_of_ne m ρ c main_v5 (by decide)).trans ((Stretch1.rootStack m ρ c).trans (kept0_root m ρ c))
theorem kept1_cube : W4 m ρ c (Proc.devRef .tc main_v6) = biasCube (m ((c : Thread nD τ).loc main_arg3)) :=
  (W4_of_ne m ρ c main_v6 (by decide)).trans ((Stretch1.cube m ρ c).trans (kept0_cube m ρ c))
theorem kept1_fcw : W4 m ρ c (Proc.devRef .tc main_arg5) = m ((c : Thread nD τ).loc main_arg5) :=
  (W4_of_ne m ρ c main_arg5 (by decide)).trans ((Stretch1.fcw m ρ c).trans (kept0_fcw m ρ c))
theorem kept1_fcb : W4 m ρ c (Proc.devRef .tc main_arg6) = m ((c : Thread nD τ).loc main_arg6) :=
  (W4_of_ne m ρ c main_arg6 (by decide)).trans ((Stretch1.fcb m ρ c).trans (kept0_fcb m ρ c))

/-! ## Layer 2 -/

/-- Region 2 leaves layer 2's result, of layer 1's. -/
theorem after2 : W6 m ρ c (Proc.devRef .tc main_v57)
    = layerOut2 (W4 m ρ c (Proc.devRef .tc main_v40)) (m ((c : Thread nD τ).loc main_arg1)) (m ((c : Thread nD τ).loc main_arg2))
        (m ((c : Thread nD τ).loc main_arg3)) (m ((c : Thread nD τ).loc main_arg4)) := by
  refine (W6_arr m ρ c 5).trans ?_
  rw [Region2.result]
  unfold Region2.layer layerOut2
  show combine (W5 m ρ c (Proc.devRef .tc main_v50)) (W5 m ρ c (Proc.devRef .tc main_v40)) (W5 m ρ c (Proc.devRef .tc main_v52))
    (W5 m ρ c (Proc.devRef .tc main_v56)) (W5 m ρ c (Proc.devRef .tc main_v54)) = _
  rw [Stretch2.agg, Stretch2.feat, Stretch2.wr, Stretch2.wo, Stretch2.bias,
    kept1_src, kept1_dst, kept1_rel, kept1_root, kept1_cube]

theorem kept2_fcw : W6 m ρ c (Proc.devRef .tc main_arg5) = m ((c : Thread nD τ).loc main_arg5) :=
  (W6_of_ne m ρ c main_arg5 (by decide)).trans ((Stretch2.fcw m ρ c).trans (kept1_fcw m ρ c))
theorem kept2_fcb : W6 m ρ c (Proc.devRef .tc main_arg6) = m ((c : Thread nD τ).loc main_arg6) :=
  (W6_of_ne m ρ c main_arg6 (by decide)).trans ((Stretch2.fcb m ρ c).trans (kept1_fcb m ρ c))

/-! ## The projection -/

/-- Region 3 leaves the projection of layer 2's result. -/
theorem after3 : W8 m ρ c (Proc.devRef .tc main_v60)
    = project (r := 100000) (k := 128) (n := 64) (W6 m ρ c (Proc.devRef .tc main_v57)) (fcT (m ((c : Thread nD τ).loc main_arg5)))
        (fcRow (m ((c : Thread nD τ).loc main_arg6))) := by
  refine (W8_arr m ρ c 3).trans ?_
  rw [Region3.result]
  unfold Region3.layer
  show project (W7 m ρ c (Proc.devRef .tc main_v57)) (W7 m ρ c (Proc.devRef .tc main_v58)) (W7 m ρ c (Proc.devRef .tc main_v59)) = _
  rw [Stretch3.feat, Stretch3.w, Stretch3.bias, kept2_fcw, kept2_fcb]

/-- The result buffer after the run is the network of the argument arrays. -/
theorem result : W8 m ρ c (Proc.devRef .tc main_v60)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [after3, after2, after1, after0]
  rfl

end Cert.KernelIdeal.Hand

end
-- ==== Proof.RefValue.lean ====
/-
  The reference program's result, layer by layer, as functions of whole arrays.

  The reference computes every layer on the host: the aggregated neighbour features A of the current features X (gather
  the source rows, add them at the destination rows), then (A · Wr + bias) + X · Wo with the bias row broadcast down the
  rows, three times, and at the end X · W + bias. On the extended reals a host dot_general is the matrix product as
  a sum over the contracted coordinate, and (a + b) + c = (a + c) + b; so each layer is the layer function
  (A · Wr + X · Wo) + bias of whole arrays, applied to the previous layer's result, and the end is the projection.
  The aggregation is kept as one function of the features and the edge list and never opened.
-/
import proofs.«110138_j54056458388016_1_alg».proof.Proof.Gen.ReferenceIdeal.Read
import proofs.«110138_j54056458388016_1_alg».proof.Proof.GraphLayers

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Lib.MatProd Cert.Hand.Layers

abbrev Edges := (⟨S2x1600000, .i32⟩ : BufTy).Contents (Elt Ideal)
abbrev Feat := (⟨S100000x128, .f32⟩ : BufTy).Contents (Elt Ideal)
abbrev Stack := (⟨S3x128x128, .f32⟩ : BufTy).Contents (Elt Ideal)
abbrev Mat := (⟨S128x128, .f32⟩ : BufTy).Contents (Elt Ideal)
abbrev BiasStack := (⟨S3x128, .f32⟩ : BufTy).Contents (Elt Ideal)
abbrev BiasRow := (⟨S1x128, .f32⟩ : BufTy).Contents (Elt Ideal)

/-- The aggregated neighbour features of X along the edge list: the reference's gather and scatter-add. -/
def refAgg (X : Feat) (x1 : Edges) : Feat :=
  Host.scatterAdd (F := Ideal) (φ := .f32) scatter_S100000x128_S1600000x1_S1600000x128_1_0_0_1 (val_main_v11 (F := Ideal))
    (val_main_v12 (F := Ideal) x1)
    (Host.gather (α := Elt Ideal .f32) gather_S100000x128_S1600000x1_S1600000x128_1_0_n_n_0_1_1128 X (val_main_v9 (F := Ideal) x1))

/-- Each of the three aggregations is that one function, of the features it is given. -/
theorem agg0 (x0 : Feat) (x1 : Edges) : val_main_v13 (F := Ideal) x0 x1 = refAgg x0 x1 := rfl
theorem agg1 (x0 : Feat) (x1 : Edges) (x2 : Stack) (x3 : BiasStack) (x4 : Stack) :
    val_main_v37 (F := Ideal) x0 x1 x2 x3 x4 = refAgg (val_main_v27 (F := Ideal) x0 x1 x2 x3 x4) x1 := rfl
theorem agg2 (x0 : Feat) (x1 : Edges) (x2 : Stack) (x3 : BiasStack) (x4 : Stack) :
    val_main_v61 (F := Ideal) x0 x1 x2 x3 x4 = refAgg (val_main_v51 (F := Ideal) x0 x1 x2 x3 x4) x1 := rfl

/-- The reference's spelling of a layer — two host products, the bias row broadcast down the rows and added between
    them — is the layer function. -/
theorem layer_eq (A X : Feat) (Wr Wo : Mat) (brow : BiasRow) :
    addf (addf (Host.dotGeneral (F := Ideal) (φ₁ := .f32) (φ₂ := .f32) dot_S100000x128_S128x128_S100000x128_1_0_0_1_n_n none A Wr)
        (broadcastInDim S100000x128 ![0, 1] bcast_S1x128_S100000x128_0_1 brow))
      (Host.dotGeneral (F := Ideal) (φ₁ := .f32) (φ₂ := .f32) dot_S100000x128_S128x128_S100000x128_1_0_0_1_n_n none X Wo)
    = combine (r := 100000) (k := 128) (n := 128) A X Wr Wo brow := by
  funext i
  simp only [Host.dotGeneral]
  rw [addf_apply, addf_apply, dotGeneral_eq_matProd _ rfl rfl rfl rfl rfl rfl, dotGeneral_eq_matProd _ rfl rfl rfl rfl rfl rfl,
    broadcastInDim_apply _ bcast_S1x128_S100000x128_0_1 brow i (ix2 (0 : Fin 1) (⟨(i 1).val, idx2_lt1 i⟩ : Fin 128))
      (fun a => match a with
        | ⟨0, _⟩ => by show (0 : Nat) = if (1 : Nat) = 1 then 0 else (i 0).val; rw [if_pos rfl]
        | ⟨1, _⟩ => by show (i 1).val = if (128 : Nat) = 1 then 0 else (i 1).val; rw [if_neg (by decide)])]
  exact combine_regroup A X Wr Wo brow i

/-- The reference's spelling of the projection is the projection function. -/
theorem project_eq (X : Feat) (W : (⟨S128x64, .f32⟩ : BufTy).Contents (Elt Ideal)) (brow : (⟨S1x64, .f32⟩ : BufTy).Contents (Elt Ideal)) :
    addf (Host.dotGeneral (F := Ideal) (φ₁ := .f32) (φ₂ := .f32) dot_S100000x128_S128x64_S100000x64_1_0_0_1_n_n none X W)
      (broadcastInDim S100000x64 ![0, 1] bcast_S1x64_S100000x64_0_1 brow)
    = project (r := 100000) (k := 128) (n := 64) X W brow := by
  funext i
  simp only [Host.dotGeneral]
  rw [addf_apply, dotGeneral_eq_matProd _ rfl rfl rfl rfl rfl rfl,
    broadcastInDim_apply _ bcast_S1x64_S100000x64_0_1 brow i (ix2 (0 : Fin 1) (⟨(i 1).val, idx2_lt1 i⟩ : Fin 64))
      (fun a => match a with
        | ⟨0, _⟩ => by show (0 : Nat) = if (1 : Nat) = 1 then 0 else (i 0).val; rw [if_pos rfl]
        | ⟨1, _⟩ => by show (i 1).val = if (64 : Nat) = 1 then 0 else (i 1).val; rw [if_neg (by decide)])]
  rfl

variable (x0 : Feat) (x1 : Edges) (x2 : Stack) (x3 : BiasStack) (x4 : Stack)

/-- Layer 0 of the reference. -/
theorem layer0 : val_main_v27 (F := Ideal) x0 x1 x2 x3 x4
    = combine (r := 100000) (k := 128) (n := 128) (refAgg x0 x1) x0 (val_main_v16 (F := Ideal) x2) (val_main_v25 (F := Ideal) x4) (val_main_v20 (F := Ideal) x3) := by
  unfold val_main_v27 val_main_v22 val_main_v17 val_main_v26 val_main_v21
  rw [agg0]
  exact layer_eq _ _ _ _ _

/-- Layer 1 of the reference, of layer 0's result. -/
theorem layer1 : val_main_v51 (F := Ideal) x0 x1 x2 x3 x4
    = combine (r := 100000) (k := 128) (n := 128) (refAgg (val_main_v27 (F := Ideal) x0 x1 x2 x3 x4) x1) (val_main_v27 (F := Ideal) x0 x1 x2 x3 x4)
        (val_main_v40 (F := Ideal) x2) (val_main_v49 (F := Ideal) x4) (val_main_v44 (F := Ideal) x3) := by
  unfold val_main_v51 val_main_v46 val_main_v41 val_main_v50 val_main_v45
  rw [agg1]
  exact layer_eq _ _ _ _ _

/-- Layer 2 of the reference, of layer 1's result. -/
theorem layer2 : val_main_v75 (F := Ideal) x0 x1 x2 x3 x4
    = combine (r := 100000) (k := 128) (n := 128) (refAgg (val_main_v51 (F := Ideal) x0 x1 x2 x3 x4) x1) (val_main_v51 (F := Ideal) x0 x1 x2 x3 x4)
        (val_main_v64 (F := Ideal) x2) (val_main_v73 (F := Ideal) x4) (val_main_v68 (F := Ideal) x3) := by
  unfold val_main_v75 val_main_v70 val_main_v65 val_main_v74 val_main_v69
  rw [agg2]
  exact layer_eq _ _ _ _ _

/-- The reference's result: the projection of layer 2's result. -/
theorem out_eq (x5 : (⟨S64x128, .f32⟩ : BufTy).Contents (Elt Ideal)) (x6 : (⟨S64, .f32⟩ : BufTy).Contents (Elt Ideal)) :
    val_main_v80 (F := Ideal) x0 x1 x2 x3 x4 x5 x6
    = project (r := 100000) (k := 128) (n := 64) (val_main_v75 (F := Ideal) x0 x1 x2 x3 x4) (val_main_v76 (F := Ideal) x5) (val_main_v78 (F := Ideal) x6) := by
  unfold val_main_v80 val_main_v77 val_main_v79
  exact project_eq _ _ _

end Cert.ReferenceIdeal.RefValue

end
-- ==== Proof.LayoutReads.lean ====
/-
  Slices of stacked weights and biases, read at an index.

  Slice l of a 3×128×128 stack W, as a 128×128 matrix, taken AFTER swapping the stack's last two axes, has entry
  (p, q) = W(l, q, p); so has the transpose of slice l taken from the stack as it is. Row l of a 3×128 bias stack b as a
  1×128 array has entry (0, q) = b(l, q), whether it is cut from the stack re-shaped to 3×1×128 or cut as a 1×128 slice,
  flattened and given a unit leading axis again. A 64-vector as a 1×64 array has entry (0, q) = the vector's entry q,
  whether re-shaped or broadcast. Each is the operand read at the index with the same row-major position, shifted by a
  slice's offsets, permuted by a transpose. Nothing here mentions a program.
-/
import Idealize.ShloMosaic.Lib.ValueIdx
import Idealize.ShloMosaic.Lib.Pipeline.Value

namespace Cert.Hand.LayoutReads

open Idealize.ShloMosaic Idealize.ShloMosaic.ValueIdx

variable {α : Type}

/-- Slice l of the stack with its last two axes swapped, as a matrix, at (p, q) is W(l, q, p). -/
theorem swapped_slice_apply (l : Fin 3) (W : (⟨3, ![3, 128, 128]⟩ : Shape).Idx → α)
    (ht : (⟨3, ![3, 128, 128]⟩ : Shape).Transposes [0, 2, 1] ⟨3, ![3, 128, 128]⟩)
    (hs : (⟨3, ![3, 128, 128]⟩ : Shape).Slices ![l.val, 0, 0] ⟨3, ![1, 128, 128]⟩)
    (hc : (⟨3, ![1, 128, 128]⟩ : Shape).ShapeCasts ⟨2, ![128, 128]⟩) (p q : Fin 128) :
    shapeCast ⟨2, ![128, 128]⟩ (extractStridedSlice ⟨3, ![1, 128, 128]⟩ ![l.val, 0, 0]
      (transpose ⟨3, ![3, 128, 128]⟩ [0, 2, 1] W ht) hs) hc (ix2 p q) = W (ix3 l q p) := by
  rw [shapeCast_apply _ hc (ix2 p q) (ix3 (0 : Fin 1) p q) (by
      rw [Shape.rowMajor_val_three, Shape.rowMajor_val_two]
      show ((0 : Nat) * 128 + p.val) * 128 + q.val = p.val * 128 + q.val; omega),
    extractStridedSlice_apply _ _ hs (ix3 (0 : Fin 1) p q) (ix3 l p q) (fun a => by
      match a with
      | ⟨0, _⟩ => show l.val = l.val + 0; omega
      | ⟨1, _⟩ => show p.val = 0 + p.val; omega
      | ⟨2, _⟩ => show q.val = 0 + q.val; omega),
    transpose_apply _ _ ht (ix3 l p q) (ix3 l q p) (fun b => by
      match b with
      | ⟨0, _⟩ => rfl
      | ⟨1, _⟩ => rfl
      | ⟨2, _⟩ => rfl)]

/-- The transpose of slice l of the stack, as a matrix, at (p, q) is W(l, q, p). -/
theorem slice_transposed_apply (l : Fin 3) (W : (⟨3, ![3, 128, 128]⟩ : Shape).Idx → α)
    (hs : (⟨3, ![3, 128, 128]⟩ : Shape).Slices ![l.val, 0, 0] ⟨3, ![1, 128, 128]⟩)
    (hc : (⟨3, ![1, 128, 128]⟩ : Shape).ShapeCasts ⟨2, ![128, 128]⟩)
    (ht : (⟨2, ![128, 128]⟩ : Shape).Transposes [1, 0] ⟨2, ![128, 128]⟩) (p q : Fin 128) :
    transpose ⟨2, ![128, 128]⟩ [1, 0] (shapeCast ⟨2, ![128, 128]⟩
      (extractStridedSlice ⟨3, ![1, 128, 128]⟩ ![l.val, 0, 0] W hs) hc) ht (ix2 p q) = W (ix3 l q p) := by
  rw [transpose_apply _ _ ht (ix2 p q) (ix2 q p) (fun b => by
      match b with
      | ⟨0, _⟩ => rfl
      | ⟨1, _⟩ => rfl),
    shapeCast_apply _ hc (ix2 q p) (ix3 (0 : Fin 1) q p) (by
      rw [Shape.rowMajor_val_three, Shape.rowMajor_val_two]
      show ((0 : Nat) * 128 + q.val) * 128 + p.val = q.val * 128 + p.val; omega),
    extractStridedSlice_apply _ _ hs (ix3 (0 : Fin 1) q p) (ix3 l q p) (fun a => by
      match a with
      | ⟨0, _⟩ => show l.val = l.val + 0; omega
      | ⟨1, _⟩ => show q.val = 0 + q.val; omega
      | ⟨2, _⟩ => show p.val = 0 + p.val; omega)]

/-- Row l of the bias stack re-shaped to 3×1×128, cut out and flattened to 1×128, at (0, q) is b(l, q). -/
theorem cube_row_apply (l : Fin 3) (b : (⟨2, ![3, 128]⟩ : Shape).Idx → α)
    (hc₁ : (⟨2, ![3, 128]⟩ : Shape).ShapeCasts ⟨3, ![3, 1, 128]⟩)
    (hs : (⟨3, ![3, 1, 128]⟩ : Shape).Slices ![l.val, 0, 0] ⟨3, ![1, 1, 128]⟩)
    (hc₂ : (⟨3, ![1, 1, 128]⟩ : Shape).ShapeCasts ⟨2, ![1, 128]⟩) (q : Fin 128) :
    shapeCast ⟨2, ![1, 128]⟩ (extractStridedSlice ⟨3, ![1, 1, 128]⟩ ![l.val, 0, 0]
      (shapeCast ⟨3, ![3, 1, 128]⟩ b hc₁) hs) hc₂ (ix2 (0 : Fin 1) q) = b (ix2 l q) := by
  rw [shapeCast_apply _ hc₂ (ix2 (0 : Fin 1) q) (ix3 (0 : Fin 1) (0 : Fin 1) q) (by
      rw [Shape.rowMajor_val_three, Shape.rowMajor_val_two]
      show ((0 : Nat) * 1 + 0) * 128 + q.val = 0 * 128 + q.val; omega),
    extractStridedSlice_apply _ _ hs (ix3 (0 : Fin 1) (0 : Fin 1) q) (ix3 l (0 : Fin 1) q) (fun a => by
      match a with
      | ⟨0, _⟩ => show l.val = l.val + 0; omega
      | ⟨1, _⟩ => show (0 : Nat) = 0 + 0; omega
      | ⟨2, _⟩ => show q.val = 0 + q.val; omega),
    shapeCast_apply _ hc₁ (ix3 l (0 : Fin 1) q) (ix2 l q) (by
      rw [Shape.rowMajor_val_three, Shape.rowMajor_val_two]
      show l.val * 128 + q.val = (l.val * 1 + 0) * 128 + q.val; omega)]

/-- Row l of the bias stack cut as a 1×128 slice, flattened to a 128-vector and given a unit leading axis, at (0, q)
    is b(l, q). -/
theorem slice_row_apply (l : Fin 3) (b : (⟨2, ![3, 128]⟩ : Shape).Idx → α)
    (hs : (⟨2, ![3, 128]⟩ : Shape).Slices ![l.val, 0] ⟨2, ![1, 128]⟩)
    (hc : (⟨2, ![1, 128]⟩ : Shape).ShapeCasts ⟨1, ![128]⟩)
    (hb : (⟨1, ![128]⟩ : Shape).BroadcastsInDim ⟨2, ![1, 128]⟩ (![1] : Fin 1 → Fin 2)) (q : Fin 128) :
    broadcastInDim ⟨2, ![1, 128]⟩ ![1] hb (shapeCast ⟨1, ![128]⟩
      (extractStridedSlice ⟨2, ![1, 128]⟩ ![l.val, 0] b hs) hc) (ix2 (0 : Fin 1) q) = b (ix2 l q) := by
  rw [broadcastInDim_apply _ hb _ (ix2 (0 : Fin 1) q) (ix1 q) (fun a => by
      match a with
      | ⟨0, _⟩ => show q.val = if (128 : Nat) = 1 then 0 else q.val; rw [if_neg (by decide)]),
    shapeCast_apply _ hc (ix1 q) (ix2 (0 : Fin 1) q) (by
      rw [Shape.rowMajor_val_two, Shape.rowMajor_val_one]
      show (0 : Nat) * 128 + q.val = q.val; omega),
    extractStridedSlice_apply _ _ hs (ix2 (0 : Fin 1) q) (ix2 l q) (fun a => by
      match a with
      | ⟨0, _⟩ => show l.val = l.val + 0; omega
      | ⟨1, _⟩ => show q.val = 0 + q.val; omega)]

/-- A 64-vector re-shaped to 1×64 at (0, q) is its entry q. -/
theorem reshaped_row_apply (b : (⟨1, ![64]⟩ : Shape).Idx → α)
    (hc : (⟨1, ![64]⟩ : Shape).ShapeCasts ⟨2, ![1, 64]⟩) (q : Fin 64) :
    shapeCast ⟨2, ![1, 64]⟩ b hc (ix2 (0 : Fin 1) q) = b (ix1 q) :=
  shapeCast_apply _ hc (ix2 (0 : Fin 1) q) (ix1 q) (by
    rw [Shape.rowMajor_val_two, Shape.rowMajor_val_one]
    show q.val = (0 : Nat) * 64 + q.val; omega)

/-- A 64-vector broadcast to 1×64 along a new leading axis at (0, q) is its entry q. -/
theorem broadcast_row_apply (b : (⟨1, ![64]⟩ : Shape).Idx → α)
    (hb : (⟨1, ![64]⟩ : Shape).BroadcastsInDim ⟨2, ![1, 64]⟩ (![1] : Fin 1 → Fin 2)) (q : Fin 64) :
    broadcastInDim ⟨2, ![1, 64]⟩ ![1] hb b (ix2 (0 : Fin 1) q) = b (ix1 q) :=
  broadcastInDim_apply _ hb _ (ix2 (0 : Fin 1) q) (ix1 q) (fun a => by
    match a with
    | ⟨0, _⟩ => show q.val = if (64 : Nat) = 1 then 0 else q.val; rw [if_neg (by decide)])

end Cert.Hand.LayoutReads
-- ==== Proof.Bridge.lean ====
/-
  The two programs' host operands are the same arrays, and so the kernel program's network is the reference's result.

  The aggregation is the same host operations in both programs. The kernel program cuts a layer's weight matrix out
  of a stack whose last two axes it swapped first; the reference cuts the matrix out of the stack as it is and transposes
  it: both have entry (p, q) = W(l, q, p). The kernel program takes a bias row from the stack re-shaped with a unit
  middle axis; the reference cuts the row, flattens it and gives it a unit leading axis: both have entry (0, q) = b(l, q).
  The final weights are transposed alike, and the final bias becomes a 1×64 array by a re-shaping in one program and a
  broadcast in the other. With the operands equal, each layer of the kernel program's network is the reference's layer
  of the same features, and the projections agree.
-/
import proofs.«110138_j54056458388016_1_alg».proof.Proof.Network
import proofs.«110138_j54056458388016_1_alg».proof.Proof.RefValue
import proofs.«110138_j54056458388016_1_alg».proof.Proof.LayoutReads

set_option maxRecDepth 16384

noncomputable section

namespace Cert.Hand.Bridge

open Idealize.ShloMosaic Idealize.ShloMosaic.TcCoe Idealize.ShloMosaic.ValueIdx
open Cert.Hand.Layers Cert.Hand.LayoutReads
open Cert.KernelIdeal.Hand (Feat Edges Stack BiasStack aggregate srcIds dstIds swapLast mat0 mat1 mat2 biasCube row0 row1 row2
  fcT fcRow layerOut0 layerOut1 layerOut2 network)
open Cert.ReferenceIdeal.Read
open Cert.ReferenceIdeal.RefValue (refAgg)

/-- The aggregation is the same host operations in both programs. -/
theorem agg_eq (X : Feat) (E : Edges) : aggregate X (srcIds E) (dstIds E) = refAgg X E := rfl

/-! ## The weight matrices -/

theorem weights (l : Fin 3) (W : Stack)
    (ht : (⟨3, ![3, 128, 128]⟩ : Shape).Transposes [0, 2, 1] ⟨3, ![3, 128, 128]⟩)
    (hs : (⟨3, ![3, 128, 128]⟩ : Shape).Slices ![l.val, 0, 0] ⟨3, ![1, 128, 128]⟩)
    (hc : (⟨3, ![1, 128, 128]⟩ : Shape).ShapeCasts ⟨2, ![128, 128]⟩)
    (ht' : (⟨2, ![128, 128]⟩ : Shape).Transposes [1, 0] ⟨2, ![128, 128]⟩) :
    shapeCast ⟨2, ![128, 128]⟩ (extractStridedSlice ⟨3, ![1, 128, 128]⟩ ![l.val, 0, 0]
      (transpose ⟨3, ![3, 128, 128]⟩ [0, 2, 1] W ht) hs) hc
    = transpose ⟨2, ![128, 128]⟩ [1, 0] (shapeCast ⟨2, ![128, 128]⟩
      (extractStridedSlice ⟨3, ![1, 128, 128]⟩ ![l.val, 0, 0] W hs) hc) ht' := by
  funext i
  obtain ⟨p, q, rfl⟩ : ∃ (p q : Fin 128), i = ix2 p q := ⟨i 0, i 1, eq_ix2 i⟩
  exact (swapped_slice_apply l W ht hs hc p q).trans (slice_transposed_apply l W hs hc ht' p q).symm

theorem rel0 (W : Stack) : mat0 (swapLast W) = val_main_v16 (F := Ideal) W := weights 0 W _ _ _ _
theorem root0 (W : Stack) : mat0 (swapLast W) = val_main_v25 (F := Ideal) W := weights 0 W _ _ _ _
theorem rel1 (W : Stack) : mat1 (swapLast W) = val_main_v40 (F := Ideal) W := weights 1 W _ _ _ _
theorem root1 (W : Stack) : mat1 (swapLast W) = val_main_v49 (F := Ideal) W := weights 1 W _ _ _ _
theorem rel2 (W : Stack) : mat2 (swapLast W) = val_main_v64 (F := Ideal) W := weights 2 W _ _ _ _
theorem root2 (W : Stack) : mat2 (swapLast W) = val_main_v73 (F := Ideal) W := weights 2 W _ _ _ _

/-! ## The bias rows -/

theorem biases (l : Fin 3) (b : BiasStack)
    (hc₁ : (⟨2, ![3, 128]⟩ : Shape).ShapeCasts ⟨3, ![3, 1, 128]⟩)
    (hs : (⟨3, ![3, 1, 128]⟩ : Shape).Slices ![l.val, 0, 0] ⟨3, ![1, 1, 128]⟩)
    (hc₂ : (⟨3, ![1, 1, 128]⟩ : Shape).ShapeCasts ⟨2, ![1, 128]⟩)
    (hs' : (⟨2, ![3, 128]⟩ : Shape).Slices ![l.val, 0] ⟨2, ![1, 128]⟩)
    (hc : (⟨2, ![1, 128]⟩ : Shape).ShapeCasts ⟨1, ![128]⟩)
    (hb : (⟨1, ![128]⟩ : Shape).BroadcastsInDim ⟨2, ![1, 128]⟩ (![1] : Fin 1 → Fin 2)) :
    shapeCast ⟨2, ![1, 128]⟩ (extractStridedSlice ⟨3, ![1, 1, 128]⟩ ![l.val, 0, 0]
      (shapeCast ⟨3, ![3, 1, 128]⟩ b hc₁) hs) hc₂
    = broadcastInDim ⟨2, ![1, 128]⟩ ![1] hb (shapeCast ⟨1, ![128]⟩
      (extractStridedSlice ⟨2, ![1, 128]⟩ ![l.val, 0] b hs') hc) := by
  funext i
  obtain ⟨z, q, rfl⟩ : ∃ (z : Fin 1) (q : Fin 128), i = ix2 z q := ⟨i 0, i 1, eq_ix2 i⟩
  obtain rfl : z = 0 := Subsingleton.elim _ _
  exact (cube_row_apply l b hc₁ hs hc₂ q).trans (slice_row_apply l b hs' hc hb q).symm

theorem bias0 (b : BiasStack) : row0 (biasCube b) = val_main_v20 (F := Ideal) b := biases 0 b _ _ _ _ _ _
theorem bias1 (b : BiasStack) : row1 (biasCube b) = val_main_v44 (F := Ideal) b := biases 1 b _ _ _ _ _ _
theorem bias2 (b : BiasStack) : row2 (biasCube b) = val_main_v68 (F := Ideal) b := biases 2 b _ _ _ _ _ _

/-! ## The projection's operands -/

theorem fcw_eq (w : (⟨Cert.KernelIdeal.S64x128, .f32⟩ : BufTy).Contents (Elt Ideal)) : fcT w = val_main_v76 (F := Ideal) w := rfl

theorem fcb_eq (b : (⟨Cert.KernelIdeal.S64, .f32⟩ : BufTy).Contents (Elt Ideal)) : fcRow b = val_main_v78 (F := Ideal) b := by
  funext i
  obtain ⟨z, q, rfl⟩ : ∃ (z : Fin 1) (q : Fin 64), i = ix2 z q := ⟨i 0, i 1, eq_ix2 i⟩
  obtain rfl : z = 0 := Subsingleton.elim _ _
  exact (reshaped_row_apply b _ q).trans (LayoutReads.broadcast_row_apply b _ q).symm

/-! ## The layers and the network -/

variable (x : Feat) (e : Edges) (wr : Stack) (b : BiasStack) (wo : Stack)

theorem layer0_eq : layerOut0 x e wr b wo = val_main_v27 (F := Ideal) x e wr b wo := by
  rw [Cert.ReferenceIdeal.RefValue.layer0]
  unfold layerOut0
  rw [agg_eq, rel0 wr, root0 wo, bias0 b]

theorem layer1_eq (y : Feat) : layerOut1 y e wr b wo
    = combine (r := 100000) (k := 128) (n := 128) (refAgg y e) y (val_main_v40 (F := Ideal) wr) (val_main_v49 (F := Ideal) wo) (val_main_v44 (F := Ideal) b) := by
  unfold layerOut1
  rw [agg_eq, rel1 wr, root1 wo, bias1 b]

theorem layer2_eq (y : Feat) : layerOut2 y e wr b wo
    = combine (r := 100000) (k := 128) (n := 128) (refAgg y e) y (val_main_v64 (F := Ideal) wr) (val_main_v73 (F := Ideal) wo) (val_main_v68 (F := Ideal) b) := by
  unfold layerOut2
  rw [agg_eq, rel2 wr, root2 wo, bias2 b]

/-- The kernel program's network of the argument arrays is the reference's result of the same arrays. -/
theorem network_eq (fw : (⟨Cert.KernelIdeal.S64x128, .f32⟩ : BufTy).Contents (Elt Ideal)) (fb : (⟨Cert.KernelIdeal.S64, .f32⟩ : BufTy).Contents (Elt Ideal)) :
    network x e wr b wo fw fb = val_main_v80 (F := Ideal) x e wr b wo fw fb := by
  unfold network
  rw [layer0_eq, layer1_eq, layer2_eq, fcw_eq, fcb_eq,
    ← Cert.ReferenceIdeal.RefValue.layer1, ← Cert.ReferenceIdeal.RefValue.layer2, ← Cert.ReferenceIdeal.RefValue.out_eq]

end Cert.Hand.Bridge

end
-- ==== Proof.lean ====
/- The proof of `Cert.Claim`: a three-layer graph convolution with a final projection, tiled into four kernel regions
   among host gathers and scatter-adds, against the same network computed on the host.

   Frames. The kernel program's two frames are the generated frame certificates; the reference has no kernel, and its
   frame is its run with the result dropped.

   `preserves` asks nothing: the idealization rewrote no operation.

   `algebraic`. On the extended reals a change of float format is the identity, a kernel's matrix product into zeros
   and a host dot_general are the same sum over the contracted coordinate, and addition is commutative and
   associative with the infinities included. Per layer the kernel stores (agg · Wr + x · Wo) + bias for 5000 rows at a
   time and the reference computes (agg · Wr + bias) + x · Wo for all rows at once: the same extended real, entry by
   entry, with no finiteness asked. An entry of a layer depends on one row of its inputs, so the twenty row blocks a
   region writes back tile the layer of the whole arrays (Region0 … Region3). Between the regions both programs run the
   same gather and scatter-add, carried as one function and never opened, and cut the same weight and bias entries out of
   the stacks by different re-shapings (Bridge). The kernel program's run ends with the result buffer at the contents
   of the last boundary of its fold (KernelRun), which walked back to the launch memory is the network of the argument
   arrays (KernelValue); the reference's run ends at its operations' composed term, which is that network too
   (RefValue, Bridge). -/
import proofs.«110138_j54056458388016_1_alg».proof.Defs
import proofs.«110138_j54056458388016_1_alg».proof.Proof.Gen.Kernel
import proofs.«110138_j54056458388016_1_alg».proof.Proof.Gen.Kernel.Frame
import proofs.«110138_j54056458388016_1_alg».proof.Proof.Gen.KernelIdeal
import proofs.«110138_j54056458388016_1_alg».proof.Proof.Gen.KernelIdeal.Frame
import proofs.«110138_j54056458388016_1_alg».proof.Proof.Gen.ReferenceIdeal
import proofs.«110138_j54056458388016_1_alg».proof.Proof.Gen.ReferenceIdeal.Run
import proofs.«110138_j54056458388016_1_alg».proof.Proof.Gen.ReferenceIdeal.Read
import proofs.«110138_j54056458388016_1_alg».proof.Proof.Gen.Pre_finite_inputs
import proofs.«110138_j54056458388016_1_alg».proof.Proof.KernelRun
import proofs.«110138_j54056458388016_1_alg».proof.Proof.KernelValue
import proofs.«110138_j54056458388016_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the argument arrays in their result buffers. -/
theorem algebraic : Cert.algebraic_KernelIdeal_ReferenceIdeal := by
  intro m ρ m' ρ' _ hagree
  refine ⟨fun c => Cert.KernelIdeal.Hand.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.result m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v80_eq, (hagree c).1, (hagree c).2.1, (hagree c).2.2.1, (hagree c).2.2.2.1,
      (hagree c).2.2.2.2.1, (hagree c).2.2.2.2.2.1, (hagree c).2.2.2.2.2.2]
    exact (Cert.Hand.Bridge.network_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
